-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64 : Shape := ⟨1, ![64]⟩
abbrev S2112x32 : Shape := ⟨2, ![2112, 32]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64 : S_.BroadcastsInDim S64 (![] : Fin 0 → Fin S64.rank)
  reducesTo_S64_S_d0 : S64.ReducesTo [0] S_
  bcast_S_S2112x32 : S_.BroadcastsInDim S2112x32 (![] : Fin 0 → Fin S2112x32.rank)
  reducesTo_S2112x32_S_d0_1 : S2112x32.ReducesTo [0, 1] S_

variable [Facts]

def fn_part1 {F : FTy → Type} [FloatOps F] (main_v13 : IVec S_ 1) (main_v16 : IVec S2112x32 1) : IVec S_ 1 :=
  let main_c_5 : IVec S_ 1 := constantI S_ 1 1#1
  let main_v17 : IVec S_ 1 := (fun x v => Host.reduce IntOp.andi x v reducesTo_S2112x32_S_d0_1 h_S_) main_v16 main_c_5
  let main_v18 : IVec S_ 1 := andi main_v13 main_v17
  main_v18

def fn {F : FTy → Type} [FloatOps F] (main_arg0 : FVec F S16384x64 .f32) (main_arg1 : FVec F S64 .f32) (main_arg2 : FVec F S64 .f32) (main_arg3 : FVec F S2112x32 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2112x32 .f32 := Host.absf main_arg3
  let main_cst_4 : FVec F S_ .f32 := constant S_ .f32 0x7F800000#32
  let main_v15 : FVec F S2112x32 .f32 := broadcastInDim S2112x32 ![] bcast_S_S2112x32 main_cst_4
  let main_v16 : IVec S2112x32 1 := cmpf .olt main_v14 main_v15
  fn_part1 (F := F) main_v13 main_v16
-- ==== Kernel.lean ====
abbrev S16384x64 : Shape := ⟨2, ![16384, 64]⟩
abbrev S64 : Shape := ⟨1, ![64]⟩
abbrev S2112x32 : Shape := ⟨2, ![2112, 32]⟩
abbrev S_ : Shape := ⟨0, ![]⟩
abbrev S1x64 : Shape := ⟨2, ![1, 64]⟩
abbrev S33x64x32 : Shape := ⟨3, ![33, 64, 32]⟩
abbrev S16384x64x32 : Shape := ⟨3, ![16384, 64, 32]⟩
abbrev S512x64 : Shape := ⟨2, ![512, 64]⟩
abbrev S512x64x32 : Shape := ⟨3, ![512, 64, 32]⟩
abbrev S1x64x32 : Shape := ⟨3, ![1, 64, 32]⟩
abbrev S64x32 : Shape := ⟨2, ![64, 32]⟩
abbrev S512x64x1 : Shape := ⟨3, ![512, 64, 1]⟩

abbrev nBuf : Space → Nat
  | .hbm => 27
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S2112x32, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S33x64x32, .f32⟩
  | .hbm, ⟨26, _⟩ => ⟨S16384x64x32, .f32⟩
  | .local _ .vmem, ⟨0, _⟩ => ⟨S512x64, .f32⟩
  | .local _ .vmem, ⟨1, _⟩ => ⟨S512x64, .f32⟩
  | .local _ .vmem, ⟨2, _⟩ => ⟨S64, .f32⟩
  | .local _ .vmem, ⟨3, _⟩ => ⟨S64, .f32⟩
  | .local _ .vmem, ⟨4, _⟩ => ⟨S33x64x32, .f32⟩
  | .local _ .vmem, ⟨5, _⟩ => ⟨S512x64x32, .f32⟩
  | .local _ .vmem, ⟨6, _⟩ => ⟨S512x64x32, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c33_i32 : BitVec 32 := 33#32
  let v34 : BitVec 32 := Scalar.addi c0_i32 c33_i32
  let c1_i32 : BitVec 32 := 1#32
  ⟨c0_i32, v34, c1_i32⟩
def k0_off1 (k0_t1 : Fin k0_t1_loop.trips) : Fin 3 → Nat :=
  let c0_i32 : BitVec 32 := 0#32
  let c1_i32 : BitVec 32 := 1#32
  let arg6 : BitVec 32 := Scf.iv c0_i32 c1_i32 k0_t1
  let v44 : Index := Scalar.indexCast arg6
  let c0_14 : Index := 0#32
  let c0_15 : Index := 0#32
  ![v44.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S33x64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S2112x32_S33x64x32 : S2112x32.ShapeCasts S33x64x32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S512x64 : S1x64.Broadcasts S512x64
  inb_S512x64x32_S512x64x32_0_0_0 : ∀ a, (![0, 0, 0] : Fin 3 → Nat) a + S512x64x32.size a ≤ S512x64x32.size a
  h_S512x64x32 : 0 < S512x64x32.numel
  h_S1x64x32 : 0 < S1x64x32.numel
  shapeCasts_S1x64x32_S64x32 : S1x64x32.ShapeCasts S64x32
  shapeCasts_S512x64x32_S512x64x32 : S512x64x32.ShapeCasts S512x64x32
  shapeCasts_S512x64_S512x64x1 : S512x64.ShapeCasts S512x64x1
  shapeCasts_S64x32_S1x64x32 : S64x32.ShapeCasts S1x64x32
  broadcasts_S512x64x1_S512x64x32 : S512x64x1.Broadcasts S512x64x32
  broadcasts_S1x64x32_S512x64x32 : S1x64x32.Broadcasts S512x64x32
  hrank0 : 0 < grid0.rank
  k0_t1_ok : k0_t1_loop.OK
  k0_off1_inb : ∀ k0_t1 : Fin k0_t1_loop.trips, ∀ a, (k0_off1 k0_t1) a + S1x64x32.size a ≤ S33x64x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S33x64x32.size a ≤ S33x64x32.size a
  hwx0_3 : ∀ i : grid0.Coords, EltTy.bits .f32 = 32 ∨ (Rect.block (s := S33x64x32) S33x64x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64x32.size a ≤ S16384x64x32.size a
  hwx0_4 : ∀ i : grid0.Coords, EltTy.bits .f32 = 32 ∨ (Rect.block (s := S16384x64x32) S512x64x32.size (cc0_transform_4 i) (hinb0_4 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S33x64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x64x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S64 : Shape := ⟨1, ![64]⟩
abbrev S2112x32 : Shape := ⟨2, ![2112, 32]⟩
abbrev S_ : Shape := ⟨0, ![]⟩
abbrev S1x64 : Shape := ⟨2, ![1, 64]⟩
abbrev S16384x64x1 : Shape := ⟨3, ![16384, 64, 1]⟩
abbrev S16384x64x32 : Shape := ⟨3, ![16384, 64, 32]⟩

abbrev nBuf : Space → Nat
  | .hbm => 114
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64, .f32⟩
  | .hbm, ⟨2, _⟩ => ⟨S64, .f32⟩
  | .hbm, ⟨3, _⟩ => ⟨S2112x32, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S1x64, .f32⟩
  | .hbm, ⟨32, _⟩ => ⟨S16384x64, .f32⟩
  | .hbm, ⟨33, _⟩ => ⟨S16384x64, .f32⟩
  | .hbm, ⟨34, _⟩ => ⟨S16384x64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .hbm, ⟨43, _⟩ => ⟨S64, .i32⟩
  | .hbm, ⟨44, _⟩ => ⟨S1x64, .i32⟩
  | .hbm, ⟨45, _⟩ => ⟨S_, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S16384x64, .i32⟩
  | .hbm, ⟨50, _⟩ => ⟨S_, .i32⟩
  | .hbm, ⟨51, _⟩ => ⟨S16384x64, .i32⟩
  | .hbm, ⟨52, _⟩ => ⟨S16384x64, .i32⟩
  | .hbm, ⟨53, _⟩ => ⟨S_, .i32⟩
  | .hbm, ⟨54, _⟩ => ⟨S16384x64, .i32⟩
  | .hbm, ⟨55, _⟩ => ⟨S16384x64, .i32⟩
  | .hbm, ⟨56, _⟩ => ⟨S16384x64, .i32⟩
  | .hbm, ⟨57, _⟩ => ⟨S16384x64, .i32⟩
  | .hbm, ⟨58, _⟩ => ⟨S_, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S16384x64, .f32⟩
  | .hbm, ⟨68, _⟩ => ⟨S16384x64, .i32⟩
  | .hbm, ⟨69, _⟩ => ⟨S_, .i32⟩
  | .hbm, ⟨70, _⟩ => ⟨S16384x64, .i32⟩
  | .hbm, ⟨71, _⟩ => ⟨S16384x64, .i32⟩
  | .hbm, ⟨72, _⟩ => ⟨S_, .i32⟩
  | .hbm, ⟨73, _⟩ => ⟨S16384x64, .i32⟩
  | .hbm, ⟨74, _⟩ => ⟨S16384x64, .i32⟩
  | .hbm, ⟨75, _⟩ => ⟨S16384x64, .i32⟩
  | .hbm, ⟨76, _⟩ => ⟨S16384x64, .i32⟩
  | .hbm, ⟨77, _⟩ => ⟨S_, .f32⟩
  | .hbm, ⟨78, _⟩ => ⟨S16384x64, .f32⟩
  | .hbm, ⟨79, _⟩ => ⟨S16384x64, .f32⟩
  | .hbm, ⟨80, _⟩ => ⟨S_, .i32⟩
  | .hbm, ⟨81, _⟩ => ⟨S16384x64, .i32⟩
  | .hbm, ⟨82, _⟩ => ⟨S16384x64, .i1⟩
  | .hbm, ⟨83, _⟩ => ⟨S_, .i32⟩
  | .hbm, ⟨84, _⟩ => ⟨S16384x64, .i32⟩
  | .hbm, ⟨85, _⟩ => ⟨S16384x64, .i32⟩
  | .hbm, ⟨86, _⟩ => ⟨S16384x64, .i32⟩
  | .hbm, ⟨87, _⟩ => ⟨S16384x64x1, .i32⟩
  | .hbm, ⟨88, _⟩ => ⟨S16384x64x32, .f32⟩
  | .hbm, ⟨89, _⟩ => ⟨S_, .i32⟩
  | .hbm, ⟨90, _⟩ => ⟨S16384x64, .i32⟩
  | .hbm, ⟨91, _⟩ => ⟨S16384x64, .i1⟩
  | .hbm, ⟨92, _⟩ => ⟨S_, .i32⟩
  | .hbm, ⟨93, _⟩ => ⟨S16384x64, .i32⟩
  | .hbm, ⟨94, _⟩ => ⟨S16384x64, .i32⟩
  | .hbm, ⟨95, _⟩ => ⟨S16384x64, .i32⟩
  | .hbm, ⟨96, _⟩ => ⟨S16384x64x1, .i32⟩
  | .hbm, ⟨97, _⟩ => ⟨S16384x64x32, .f32⟩
  | .hbm, ⟨98, _⟩ => ⟨S16384x64x1, .f32⟩
  | .hbm, ⟨99, _⟩ => ⟨S16384x64x1, .f32⟩
  | .hbm, ⟨100, _⟩ => ⟨S16384x64x1, .f32⟩
  | .hbm, ⟨101, _⟩ => ⟨S_, .f32⟩
  | .hbm, ⟨102, _⟩ => ⟨S16384x64x1, .f32⟩
  | .hbm, ⟨103, _⟩ => ⟨S16384x64x1, .f32⟩
  | .hbm, ⟨104, _⟩ => ⟨S16384x64x32, .f32⟩
  | .hbm, ⟨105, _⟩ => ⟨S16384x64x32, .f32⟩
  | .hbm, ⟨106, _⟩ => ⟨S16384x64x1, .f32⟩
  | .hbm, ⟨107, _⟩ => ⟨S16384x64x1, .f32⟩
  | .hbm, ⟨108, _⟩ => ⟨S_, .f32⟩
  | .hbm, ⟨109, _⟩ => ⟨S16384x64x1, .f32⟩
  | .hbm, ⟨110, _⟩ => ⟨S16384x64x1, .f32⟩
  | .hbm, ⟨111, _⟩ => ⟨S16384x64x32, .f32⟩
  | .hbm, ⟨112, _⟩ => ⟨S16384x64x32, .f32⟩
  | .hbm, ⟨113, _⟩ => ⟨S16384x64x32, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_16 : Ref sig .tc := ⟨.hbm, 89, rfl⟩
abbrev main_v62 : Ref sig .tc := ⟨.hbm, 90, rfl⟩
abbrev main_v63 : Ref sig .tc := ⟨.hbm, 91, rfl⟩
abbrev main_c_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S16384x64x1_S16384x64x32_0_1_2 : S16384x64x1.BroadcastsInDim S16384x64x32 (![0, 1, 2] : Fin 3 → Fin S16384x64x32.rank)
  gather_S2112x32_S16384x64x1_S16384x64x32_2_0_n_n_0_2_132_wf : GatherDims.WF S2112x32 S16384x64x1 S16384x64x32 [2] [0] [] [0] [] 2 ![1, 32]

variable [Facts₀]

def gather_S2112x32_S16384x64x1_S16384x64x32_2_0_n_n_0_2_132 : GatherDims S2112x32 S16384x64x1 S16384x64x32 where
  offsetDims := [2]
  collapsedSliceDims := [0]
  operandBatchingDims := []
  startIndicesBatchingDims := []
  startIndexMap := [0]
  indexVectorDim := 2
  sliceSizes := ![1, 32]
  wf := gather_S2112x32_S16384x64x1_S16384x64x32_2_0_n_n_0_2_132_wf

class Facts : Prop extends Facts₀ where

variable [Facts]
-- ==== Proof.BodyFold.lean ====
/-
  What the kernel body leaves in its output block, for any float instance.

  The body zero-fills its 512 x 64 x 32 output block and then runs 33 trips, one per bin.  Trip k loads
  row k of the 33 x 64 x 32 table block and the whole output block as it stands, and stores back the
  output block plus (weight of bin k) times (table row k), the weight a 512 x 64 array computed from
  the x block and the scale and shift vectors.  So the block after the body is the 33rd term of the
  recurrence
      acc 0 = 0,     acc (k + 1) = step k (table row k) (acc k),
  where `step` is the trip's stored value as a function of what it loads.
-/
import proofs.«174147_j61907658605068_2_alg».proof.Proof.Gen.KernelIdeal.Frame
import Idealize.ShloMosaic.Lib.Pipeline.Value

set_option maxRecDepth 16384

noncomputable section

namespace Cert.KernelIdeal.BodyFold

open Cert.KernelIdeal Cert.KernelIdeal.Gen Idealize.ShloMosaic Idealize.ShloMosaic.TcCoe Idealize.SL.Sem

variable {F : FTy → Type} [FloatOps F]

/-- The loop runs exactly 33 trips. -/
theorem trips_eq : k0_t1_loop.trips = 33 := by decide +kernel

/-- Row `k` of the table block, as the trip loads it: a 1 x 64 x 32 slab. -/
def tableRow (x3 : Vec F S33x64x32 .f32) (k : Fin k0_t1_loop.trips) : Vec F S1x64x32 .f32 :=
  View.ld x3 (Rect.unit (s := S33x64x32) (k0_off1 k) S1x64x32.size (k0_off1_inb k))

/-- The output block after the first `k` trips. -/
def acc (x0 : Vec F S512x64 .f32) (x1 x2 : Vec F S64 .f32) (x3 : Vec F S33x64x32 .f32) : ℕ → Vec F S512x64x32 .f32
  | 0 => k0_pay1 (F := F)
  | k + 1 => if h : k < k0_t1_loop.trips then k0_pay2 x0 x1 x2 ⟨k, h⟩ (tableRow x3 ⟨k, h⟩) (acc x0 x1 x2 x3 k) else acc x0 x1 x2 x3 k

theorem acc_succ (x0 : Vec F S512x64 .f32) (x1 x2 : Vec F S64 .f32) (x3 : Vec F S33x64x32 .f32) (k : Fin k0_t1_loop.trips) :
    acc x0 x1 x2 x3 (k.val + 1) = k0_pay2 x0 x1 x2 k (tableRow x3 k) (acc x0 x1 x2 x3 k.val) := by
  rw [acc]; exact dif_pos k.isLt

/-- The whole-block rectangle starts at the origin. -/
theorem origin3 : (![0, 0, 0] : Fin S512x64x32.rank → ℕ) = fun _ => 0 := by
  funext a; match a with | ⟨0, _⟩ => rfl | ⟨1, _⟩ => rfl | ⟨2, _⟩ => rfl
theorem origin2 : (![0, 0] : Fin S512x64.rank → ℕ) = fun _ => 0 := by
  funext a; match a with | ⟨0, _⟩ => rfl | ⟨1, _⟩ => rfl
theorem origin1 : (![0] : Fin S64.rank → ℕ) = fun _ => 0 := by
  funext a; match a with | ⟨0, _⟩ => rfl

section Trips

variable (c : Dev nD) (i : grid0.Coords) (arg1 : Memref sig .tc .vmem S512x64 .f32) (harg1 : arg1.IsWhole) (arg2 : Memref sig .tc .vmem S64 .f32) (harg2 : arg2.IsWhole) (arg3 : Memref sig .tc .vmem S64 .f32) (harg3 : arg3.IsWhole) (arg4 : Memref sig .tc .vmem S33x64x32 .f32) (harg4 : arg4.IsWhole) (arg5 : Memref sig .tc .vmem S512x64x32 .f32) (harg5 : arg5.IsWhole)
  (x0 : Vec F S512x64 .f32) (x1 x2 : Vec F S64 .f32) (x3 : Vec F S33x64x32 .f32) (G : BufTy.Contents (Elt F) arg5.view.ty)

/-- A load of the whole output block after one more trip reads that trip's stored value (the trip's store covers the
    block), and that value is `step` of the table row and of what a load of the block read before the trip. -/
theorem load_after_trip (k : Fin k0_t1_loop.trips) :
    View.readAt (Elt F) arg5.view (Rect.unit (s := S512x64x32) ![0, 0, 0] S512x64x32.size inb_S512x64x32_S512x64x32_0_0_0).toLoadRect
        (arg5.view.writes (Elt F) G (pb_k0_t1 (F := F) Variants.none c none i arg1 harg1 arg2 harg2 arg3 harg3 arg4 harg4 arg5 harg5 x0 x1 x2 (harg4.unread x3) G (k.val + 1)))
      = k0_pay2 x0 x1 x2 k (tableRow x3 k)
          (View.readAt (Elt F) arg5.view (Rect.unit (s := S512x64x32) ![0, 0, 0] S512x64x32.size inb_S512x64x32_S512x64x32_0_0_0).toLoadRect
            (arg5.view.writes (Elt F) G (pb_k0_t1 (F := F) Variants.none c none i arg1 harg1 arg2 harg2 arg3 harg3 arg4 harg4 arg5 harg5 x0 x1 x2 (harg4.unread x3) G k.val))) := by
  rw [pb_k0_t1_succ]
  unfold tripL_k0_t1 trip_k0_t1
  dsimp only
  have e : View.readAt (Elt F) arg4.view (Rect.unit (s := S33x64x32) (k0_off1 k) S1x64x32.size (k0_off1_inb k)).toLoadRect (harg4.unread x3) = tableRow x3 k := by
    unfold tableRow; rw [View.readAt_eq_ld, harg4.read_unread]
  rw [List.singleton_append, View.readAt_eq_ld, e]
  funext y
  exact View.read_writes_cons_emb arg5.view G _ _ _ y

/-- So if a load of the block before the loop reads zero, a load after `k` trips reads `acc k`. -/
theorem load_after_trips (hG : View.readAt (Elt F) arg5.view (Rect.unit (s := S512x64x32) ![0, 0, 0] S512x64x32.size inb_S512x64x32_S512x64x32_0_0_0).toLoadRect G = k0_pay1 (F := F)) :
    ∀ k : ℕ, k ≤ k0_t1_loop.trips →
      View.readAt (Elt F) arg5.view (Rect.unit (s := S512x64x32) ![0, 0, 0] S512x64x32.size inb_S512x64x32_S512x64x32_0_0_0).toLoadRect
        (arg5.view.writes (Elt F) G (pb_k0_t1 (F := F) Variants.none c none i arg1 harg1 arg2 harg2 arg3 harg3 arg4 harg4 arg5 harg5 x0 x1 x2 (harg4.unread x3) G k))
      = acc x0 x1 x2 x3 k
  | 0, _ => by rw [pb_k0_t1, View.writes_nil, hG]; rfl
  | k + 1, h => by
    have ih := load_after_trips hG k (Nat.le_of_succ_le h)
    have hk : k < k0_t1_loop.trips := h
    have := load_after_trip c i arg1 harg1 arg2 harg2 arg3 harg3 arg4 harg4 arg5 harg5 x0 x1 x2 x3 G ⟨k, hk⟩
    rw [ih] at this
    exact this.trans (acc_succ x0 x1 x2 x3 ⟨k, hk⟩).symm

end Trips

/-- THE BODY'S BLOCK: what the body leaves in its output block, on any staging memrefs, is `acc` after all 33 trips. -/
theorem out_eq_acc (c : Dev nD) (i : grid0.Coords) (arg1 : Memref sig .tc .vmem S512x64 .f32) (harg1 : arg1.IsWhole) (arg2 : Memref sig .tc .vmem S64 .f32) (harg2 : arg2.IsWhole) (arg3 : Memref sig .tc .vmem S64 .f32) (harg3 : arg3.IsWhole) (arg4 : Memref sig .tc .vmem S33x64x32 .f32) (harg4 : arg4.IsWhole) (arg5 : Memref sig .tc .vmem S512x64x32 .f32) (harg5 : arg5.IsWhole)
    (x0 : Vec F S512x64 .f32) (x1 x2 : Vec F S64 .f32) (x3 : Vec F S33x64x32 .f32) :
    out0_A_4 c i arg1 harg1 arg2 harg2 arg3 harg3 arg4 harg4 arg5 harg5 x0 x1 x2 x3 = acc x0 x1 x2 x3 33 := by
  unfold out0_A_4
  rw [View.read_writes_eq_canon _ _ _ (cover0_A_4 c i arg1 harg1 arg2 harg2 arg3 harg3 arg4 harg4 arg5 harg5 x0 x1 x2 x3)]
  unfold kernelRun0_A
  dsimp only
  simp only [View.readAt_eq_ld, Memref.IsWhole.read_unread, View.ld_unit_zero (S := S512x64) origin2, View.ld_unit_zero (S := S64) origin1]
  have ht : Scf.trips (0#32) (Scalar.addi 0#32 33#32) 1#32 = 32 + 1 := trips_eq
  have h32 : 32 < k0_t1_loop.trips := by rw [trips_eq]; omega
  have hG : View.readAt (Elt F) arg5.view (Rect.unit (s := S512x64x32) ![0, 0, 0] S512x64x32.size inb_S512x64x32_S512x64x32_0_0_0).toLoadRect
      (arg5.view.writes (Elt F) arg5.view.junk kernelRun0_A.sl.H4_1) = k0_pay1 (F := F) := by
    unfold kernelRun0_A.sl.H4_1
    rw [View.readAt_eq_ld]
    funext y
    exact View.read_writes_cons_emb arg5.view _ _ _ _ y
  have hrow : View.ld x3 (Rect.unit (s := S33x64x32) (k0_off1 ⟨32, h32⟩) S1x64x32.size (k0_off1_inb ⟨32, h32⟩)) = tableRow x3 ⟨32, h32⟩ := rfl
  have hl := load_after_trips c i arg1 harg1 arg2 harg2 arg3 harg3 arg4 harg4 arg5 harg5 x0 x1 x2 x3 _ hG 32 (Nat.le_of_lt h32)
  rw [View.readAt_eq_ld] at hl
  rw [ht, (pb_k0_t1_succ (F := F) Variants.none c none i arg1 harg1 arg2 harg2 arg3 harg3 arg4 harg4 arg5 harg5 x0 x1 x2 (harg4.unread x3) _ ⟨32, h32⟩ : pb_k0_t1 (F := F) Variants.none c none i arg1 harg1 arg2 harg2 arg3 harg3 arg4 harg4 arg5 harg5 x0 x1 x2 (harg4.unread x3) _ (32 + 1) = _)]
  unfold tripL_k0_t1 trip_k0_t1
  dsimp only
  simp only [View.readAt_eq_ld, Memref.IsWhole.read_unread]
  rw [List.singleton_append, List.cons_append, View.canon_cons_unit_zero origin3, hrow, hl]
  exact (acc_succ x0 x1 x2 x3 ⟨32, h32⟩).symm

end Cert.KernelIdeal.BodyFold

end
-- ==== Proof.Spec.lean ====
/-
  The scalar functions both programs are built from, over the extended reals.

  For a pre-activation `u` (the batch-normalised input), `scaled u` is sixteen times `tanh u` clipped to
  ±16777048/2^24.  The kernel compares, for each of the 33 bins `k`, the integer bins `floor s + 16` and
  `floor (s + 1) + 16` of `s = scaled u` with `k`, and gives bin `k` the weight `floor (s + 1) - s` if it is
  the low bin, plus `s - floor s` if it is the high bin (`binWeight`); the floors are taken as floats, converted
  to 32-bit integers, and converted back.
-/
import Idealize.ShloMosaic.PureOps.Ideal
import Idealize.ShloMosaic.Lib.Scf

noncomputable section

namespace Cert.Spec

open Idealize.ShloMosaic

/-- The clipped hyperbolic tangent. -/
def clipped (u : EReal) : EReal :=
  min (Ideal.ofBits .f32 0x3F7FFF58#32) (max (Ideal.ofBits .f32 0xBF7FFF58#32) (Ideal.tanh u))

/-- Sixteen times the clipped hyperbolic tangent: a position on the axis of 33 bins. -/
def scaled (u : EReal) : EReal := clipped u * Ideal.ofBits .f32 0x41800000#32

/-- The floor of a position, as a 32-bit integer. -/
def floorWord (s : EReal) : BitVec 32 := Ideal.fptosi 32 (Ideal.liftRound Int.floor s)

/-- The weight the kernel gives bin `k` at position `s`. -/
def binWeight (s : EReal) (k : ℕ) : EReal :=
  Scalar.select (IntOp.cmpi .eq (IntOp.addi (floorWord s) 16#32) (Scf.iv 0#32 1#32 k))
      ((((floorWord (s + Ideal.ofBits .f32 0x3F800000#32)).toInt : ℝ) : EReal) - s) (Ideal.ofBits .f32 0x00000000#32)
    + Scalar.select (IntOp.cmpi .eq (IntOp.addi (floorWord (s + Ideal.ofBits .f32 0x3F800000#32)) 16#32) (Scf.iv 0#32 1#32 k))
      (s - (((floorWord s).toInt : ℝ) : EReal)) (Ideal.ofBits .f32 0x00000000#32)

end Cert.Spec

end
-- ==== Proof.Literals.lean ====
/-
  The float literals the two programs share, as the real numbers their bit patterns denote over the
  extended reals: sixteen (the number of bins on each side of zero), one, the batch size 16384, the
  variance offset 10995116 / 2^40 (the nearest single to 1e-5), and the clip bounds ±16777048 / 2^24
  (the nearest single to 0.99999).  The clip bound is strictly below one: that is what keeps sixteen
  times a clipped value strictly inside (-16, 16), and so its floor between -16 and 15.
-/
import Idealize.ShloMosaic.PureOps.Ideal

noncomputable section

namespace Cert.Literals

open Idealize.ShloMosaic

/-- `16.0` denotes the real 16. -/
theorem ofBits_sixteen : Ideal.ofBits .f32 0x41800000#32 = ((16 : ℝ) : EReal) := by
  simp [Ideal.ofBits, Ideal.ieee, -EReal.coe_mul]; norm_num

/-- `1.0` denotes the real 1. -/
theorem ofBits_one : Ideal.ofBits .f32 0x3F800000#32 = ((1 : ℝ) : EReal) := by
  simp [Ideal.ofBits, Ideal.ieee, -EReal.coe_mul]; norm_num

/-- `16384.0`, the number of rows the batch statistics average over, denotes the real 16384. -/
theorem ofBits_count : Ideal.ofBits .f32 0x46800000#32 = ((16384 : ℝ) : EReal) := by
  simp [Ideal.ofBits, Ideal.ieee, -EReal.coe_mul]; norm_num

/-- The variance offset denotes the positive dyadic rational 10995116 / 2^40. -/
theorem ofBits_eps : Ideal.ofBits .f32 0x3727C5AC#32 = ((10995116 / 2 ^ 40 : ℝ) : EReal) := by
  simp [Ideal.ofBits, Ideal.ieee, -EReal.coe_mul]; norm_num

/-- The upper clip bound denotes 16777048 / 2^24, which is below one. -/
theorem ofBits_hi : Ideal.ofBits .f32 0x3F7FFF58#32 = ((16777048 / 2 ^ 24 : ℝ) : EReal) := by
  simp [Ideal.ofBits, Ideal.ieee, -EReal.coe_mul]; norm_num

/-- The lower clip bound is its negative. -/
theorem ofBits_lo : Ideal.ofBits .f32 0xBF7FFF58#32 = ((-(16777048 / 2 ^ 24) : ℝ) : EReal) := by
  simp [Ideal.ofBits, Ideal.ieee, -EReal.coe_mul]; norm_num

end Cert.Literals

end
-- ==== Proof.Bins.lean ====
/-
  Thirty-three bins, two of them hit.

  A position `s` strictly between -16 and 16 has its floor `L` between -16 and 15.  At such a position the
  kernel's integer bins are `L + 16` and `L + 17` (both between 0 and 32), its round trip of a floor through a
  32-bit integer is exact, and the weight it gives bin `k` is `(L + 1 - s)` if `k = L + 16`, plus `(s - L)` if
  `k = L + 17`.  Accumulating weight times table entry over the 33 bins therefore leaves exactly the two terms
  `(L + 1 - s) · T (L + 16) + (s - L) · T (L + 17)`: the linear interpolation between two neighbouring table rows.
  `scaled u` always is such a position, whatever `u` is, because the clip bound is below one.
-/
import proofs.«174147_j61907658605068_2_alg».proof.Proof.Spec
import proofs.«174147_j61907658605068_2_alg».proof.Proof.Literals
import Idealize.ShloMosaic.PureOps.Ideal.Laws

noncomputable section

namespace Cert.Bins

open Idealize.ShloMosaic Cert.Spec

/-! ## Words -/

/-- An integer in 32-bit range, as a float, converts to itself. -/
theorem fptosi_int (z : ℤ) (h1 : -2147483648 ≤ z) (h2 : z ≤ 2147483647) :
    Ideal.fptosi 32 (((z : ℝ)) : EReal) = BitVec.ofInt 32 z := by
  rw [Ideal.fptosi, Ideal.toIntClamped_coe]
  congr 1
  simp only [Int.floor_intCast, Int.ceil_intCast, ite_self]
  omega

/-- … and reads back as itself. -/
theorem toInt_ofInt_small (z : ℤ) (h1 : -2147483648 ≤ z) (h2 : z ≤ 2147483647) :
    (BitVec.ofInt 32 z).toInt = z :=
  BitVec.toInt_ofInt_eq_self (by decide) (by simpa using h1) (by simp; omega)

/-- A select on an integer equality test is the `if`. -/
theorem select_eq {α : Type} (x y : BitVec 32) (a b : α) :
    Scalar.select (IntOp.cmpi .eq x y) a b = if x = y then a else b := by
  unfold IntOp.cmpi Scalar.select
  by_cases h : x = y
  · subst h; simp
  · have hb : (x == y) = false := by simpa using h
    simp [hb, h]

/-- A small integer plus sixteen meets the loop's induction variable at trip `k` exactly when the integers agree. -/
theorem bin_eq_iff (z : ℤ) (k : ℕ) (hz1 : -16 ≤ z) (hz2 : z ≤ 17) (hk : k < 33) :
    IntOp.addi (BitVec.ofInt 32 z) 16#32 = Scf.iv 0#32 1#32 k ↔ z + 16 = (k : ℤ) := by
  have e1 : IntOp.addi (BitVec.ofInt 32 z) 16#32 = BitVec.ofInt 32 (z + 16) := by
    rw [BitVec.ofInt_add]; rfl
  have e2 : Scf.iv 0#32 1#32 k = BitVec.ofInt 32 (k : ℤ) := by
    rw [Scf.iv_eq_ofInt]; congr 1; simp
  rw [e1, e2]
  constructor
  · intro h
    have := congrArg BitVec.toInt h
    rw [toInt_ofInt_small _ (by omega) (by omega), toInt_ofInt_small _ (by omega) (by omega)] at this
    exact this
  · intro h; rw [h]

/-! ## Positions -/

/-- An extended real between two reals is a real between them. -/
theorem real_of_between {y : EReal} {a b : ℝ} (h1 : (a : EReal) ≤ y) (h2 : y ≤ (b : EReal)) :
    ∃ r : ℝ, y = (r : EReal) ∧ a ≤ r ∧ r ≤ b := by
  induction y using EReal.rec with
  | bot => exact absurd h1 (not_le.mpr (EReal.bot_lt_coe a))
  | coe r => exact ⟨r, rfl, EReal.coe_le_coe_iff.mp h1, EReal.coe_le_coe_iff.mp h2⟩
  | top => exact absurd h2 (not_le.mpr (EReal.coe_lt_top b))

/-- The clipped hyperbolic tangent is a real number of absolute value below one, whatever its argument. -/
theorem clipped_real (u : EReal) : ∃ t : ℝ, clipped u = (t : EReal) ∧ -1 < t ∧ t < 1 := by
  unfold clipped
  rw [Literals.ofBits_hi, Literals.ofBits_lo]
  have hle : ((-(16777048 / 2 ^ 24) : ℝ) : EReal) ≤ ((16777048 / 2 ^ 24 : ℝ) : EReal) :=
    EReal.coe_le_coe_iff.mpr (by norm_num)
  obtain ⟨r, hr, h1, h2⟩ := real_of_between (le_min hle (le_max_left _ (Ideal.tanh u))) (min_le_left _ _)
  refine ⟨r, hr, ?_, ?_⟩
  · have : (-1 : ℝ) < -(16777048 / 2 ^ 24) := by norm_num
    linarith
  · have : (16777048 / 2 ^ 24 : ℝ) < 1 := by norm_num
    linarith

/-- So sixteen times it is a position strictly between -16 and 16. -/
theorem scaled_real (u : EReal) : ∃ s : ℝ, scaled u = (s : EReal) ∧ -16 < s ∧ s < 16 := by
  obtain ⟨t, ht, h1, h2⟩ := clipped_real u
  refine ⟨t * 16, ?_, by linarith, by linarith⟩
  unfold scaled
  rw [ht, Literals.ofBits_sixteen, ← EReal.coe_mul]

/-- The floor of a position between -16 and 17 is between -16 and 16. -/
theorem floor_bounds (s : ℝ) (h1 : -16 < s) (h2 : s < 17) : -16 ≤ ⌊s⌋ ∧ ⌊s⌋ ≤ 16 := by
  constructor
  · exact Int.le_floor.mpr (by push_cast; linarith)
  · have : ⌊s⌋ < 17 := Int.floor_lt.mpr (by push_cast; linarith)
    omega

/-- The floor of such a position, taken as a float and converted to a 32-bit integer, is the floor. -/
theorem floorWord_coe (s : ℝ) (h1 : -16 < s) (h2 : s < 17) : floorWord (s : EReal) = BitVec.ofInt 32 ⌊s⌋ := by
  obtain ⟨hl, hu⟩ := floor_bounds s h1 h2
  unfold floorWord
  rw [Ideal.liftRound_coe]
  exact fptosi_int _ (by omega) (by omega)

/-- The weight of bin `k` at a real position `s` in (-16, 16): the low weight if `k` is the low bin, plus the high
    weight if it is the high bin. -/
theorem binWeight_coe (s : ℝ) (h1 : -16 < s) (h2 : s < 16) (k : ℕ) (hk : k < 33) :
    binWeight (s : EReal) k
      = (((if ⌊s⌋ + 16 = (k : ℤ) then ((⌊s⌋ : ℝ) + 1 - s) else 0) + (if ⌊s⌋ + 17 = (k : ℤ) then (s - (⌊s⌋ : ℝ)) else 0) : ℝ) : EReal) := by
  obtain ⟨hl, hu⟩ := floor_bounds s h1 (by linarith)
  have hu' : ⌊s⌋ ≤ 15 := by
    have : ⌊s⌋ < 16 := Int.floor_lt.mpr (by push_cast; linarith)
    omega
  unfold binWeight
  rw [Literals.ofBits_one, Ideal.ofBits_zero_f32, ← EReal.coe_add, floorWord_coe s h1 (by linarith),
    floorWord_coe (s + 1) (by linarith) (by linarith), Int.floor_add_one, select_eq, select_eq,
    toInt_ofInt_small _ (by omega) (by omega), toInt_ofInt_small _ (by omega) (by omega)]
  have e1 : (IntOp.addi (BitVec.ofInt 32 ⌊s⌋) 16#32 = Scf.iv 0#32 1#32 k) = (⌊s⌋ + 16 = (k : ℤ)) :=
    propext (bin_eq_iff _ k (by omega) (by omega) hk)
  have e2 : (IntOp.addi (BitVec.ofInt 32 (⌊s⌋ + 1)) 16#32 = Scf.iv 0#32 1#32 k) = (⌊s⌋ + 17 = (k : ℤ)) := by
    refine propext ((bin_eq_iff _ k (by omega) (by omega) hk).trans ?_)
    constructor <;> intro h <;> omega
  simp only [e1, e2]
  by_cases c1 : ⌊s⌋ + 16 = (k : ℤ) <;> by_cases c2 : ⌊s⌋ + 17 = (k : ℤ) <;>
    simp only [c1, c2, if_true, if_false, ← EReal.coe_sub, ← EReal.coe_add, EReal.coe_zero.symm] <;> push_cast <;> ring_nf
  all_goals trivial

/-! ## The accumulation over the bins -/

/-- The interpolation between the two table entries neighbouring position `s`: entry `floor s + 16` with weight
    `floor s + 1 - s`, entry `floor s + 17` with weight `s - floor s`. -/
def interp (s : ℝ) (T : ℕ → ℝ) : ℝ :=
  ((⌊s⌋ : ℝ) + 1 - s) * T (⌊s⌋ + 16).toNat + (s - (⌊s⌋ : ℝ)) * T (⌊s⌋ + 17).toNat

/-- Accumulating (weight of bin `k`) · (table entry `k`) over the 33 bins from zero leaves the interpolation between
    the two neighbouring entries. -/
theorem fold_bins (s : ℝ) (h1 : -16 < s) (h2 : s < 16) (T : ℕ → ℝ) (acc : ℕ → EReal) (h0 : acc 0 = 0)
    (hstep : ∀ k, k < 33 → acc (k + 1) = acc k + binWeight (s : EReal) k * (T k : EReal)) :
    acc 33 = ((interp s T : ℝ) : EReal) := by
  unfold interp
  obtain ⟨hl, hu⟩ := floor_bounds s h1 (by linarith)
  have hu' : ⌊s⌋ ≤ 15 := by
    have : ⌊s⌋ < 16 := Int.floor_lt.mpr (by push_cast; linarith)
    omega
  obtain ⟨n, hn⟩ : ∃ n : ℕ, ⌊s⌋ + 16 = (n : ℤ) := ⟨(⌊s⌋ + 16).toNat, by omega⟩
  have hn' : ⌊s⌋ + 17 = ((n + 1 : ℕ) : ℤ) := by push_cast; omega
  have hn33 : n + 1 < 33 := by omega
  have hacc : ∀ k, k ≤ 33 → acc k = ((∑ j ∈ Finset.range k,
      ((if n = j then ((⌊s⌋ : ℝ) + 1 - s) else 0) + (if n + 1 = j then (s - (⌊s⌋ : ℝ)) else 0)) * T j : ℝ) : EReal) := by
    intro k
    induction k with
    | zero => intro _; simpa using h0
    | succ k ih =>
      intro hk
      rw [hstep k (by omega), ih (by omega), binWeight_coe s h1 h2 k (by omega), ← EReal.coe_mul, ← EReal.coe_add,
        Finset.sum_range_succ, hn, hn']
      simp only [Nat.cast_inj]
  rw [hacc 33 le_rfl]
  congr 1
  have t1 : (⌊s⌋ + 16).toNat = n := by omega
  have t2 : (⌊s⌋ + 17).toNat = n + 1 := by omega
  rw [t1, t2]
  simp only [add_mul, Finset.sum_add_distrib, ite_mul, zero_mul, Finset.sum_ite_eq, Finset.mem_range]
  rw [if_pos (by omega), if_pos hn33]

/-! ## The reference's side: row numbers and weights -/

/-- The reference's row number for bin `z + 16` and action `a`: sixty-four times the bin plus the action, as 32-bit
    arithmetic; it is not negative, so the fix-up of negative row numbers leaves it alone, and it is at most 2111. -/
theorem row_word (z : ℤ) (a : ℕ) (hz1 : -16 ≤ z) (hz2 : z ≤ 16) (ha : a < 64) :
    let W := IntOp.addi (IntOp.muli 64#32 (IntOp.addi (BitVec.ofInt 32 z) 16#32)) (BitVec.ofNat 32 a)
    min (Scalar.select (IntOp.cmpi .slt W 0#32) (IntOp.addi W 2112#32) W).toInt.toNat (2112 - 1) = 64 * (z + 16).toNat + a := by
  intro W
  have hW : W = BitVec.ofInt 32 (64 * (z + 16) + (a : ℤ)) := by
    show IntOp.addi (IntOp.muli 64#32 (IntOp.addi (BitVec.ofInt 32 z) 16#32)) (BitVec.ofNat 32 a) = _
    rw [BitVec.ofInt_add, BitVec.ofInt_mul, BitVec.ofInt_add]
    rfl
  have hWi : W.toInt = 64 * (z + 16) + (a : ℤ) := by
    rw [hW]; exact toInt_ofInt_small _ (by omega) (by omega)
  have hns : IntOp.cmpi .slt W 0#32 = 0#1 := by
    unfold IntOp.cmpi
    have : W.slt 0#32 = false := by
      rw [BitVec.slt_eq_decide]  -- W.toInt < (0#32).toInt
      simp only [decide_eq_false_iff_not, not_lt]
      rw [hWi]; simp; omega
    simp [this]
  rw [hns]
  unfold Scalar.select
  rw [if_neg (by decide), hWi]
  omega

/-- The reference weighs the high row by `16 · (t − L/16)` and the low row by `16 · ((L + 1)/16 − t)`, `t` the clipped
    value and `L` the floor of `s = 16 t`: for real table entries that is the interpolation, with the two terms in
    the other order. -/
theorem ref_interp (s t : ℝ) (hs : s = t * 16) (T : ℕ → ℝ) :
    ((T (⌊s⌋ + 17).toNat : ℝ) : EReal) * (((16 : ℝ) : EReal) * ((t : EReal) - Ideal.div (((⌊s⌋ : ℝ)) : EReal) ((16 : ℝ) : EReal)))
      + ((T (⌊s⌋ + 16).toNat : ℝ) : EReal) * (((16 : ℝ) : EReal) * (Ideal.div ((((⌊s⌋ + 1 : ℤ) : ℝ)) : EReal) ((16 : ℝ) : EReal) - (t : EReal)))
      = ((interp s T : ℝ) : EReal) := by
  rw [Ideal.div_coe (by norm_num : (16 : ℝ) ≠ 0), Ideal.div_coe (by norm_num : (16 : ℝ) ≠ 0)]
  simp only [← EReal.coe_mul, ← EReal.coe_sub, ← EReal.coe_add]
  congr 1
  unfold interp
  subst hs
  push_cast
  ring

end Cert.Bins

end
-- ==== Proof.LibSlab.lean ====
/-
  One slab repeated along a new leading extent, for any element type and extents A, B, C:
  a `[1, B, C]` array broadcast to `[A, B, C]` reads, at `(a, b, c)`, the slab's entry `(0, b, c)`.
-/
import Idealize.ShloMosaic.Lib.Pipeline.Value
import Idealize.ShloMosaic.Lib.ValueIdx

namespace Cert.LibSlab

open Idealize.ShloMosaic Idealize.ShloMosaic.ValueIdx

variable {α : Type} {A B C : Nat}

/-- `[1, B, C] → [A, B, C]`: every copy `a` of the slab reads the slab. -/
theorem broadcastTo_1bc_abc_apply (x : (⟨3, ![1, B, C]⟩ : Shape).Idx → α)
    (h : (⟨3, ![1, B, C]⟩ : Shape).Broadcasts ⟨3, ![A, B, C]⟩) (a : Fin A) (b : Fin B) (c : Fin C) :
    broadcastTo ⟨3, ![A, B, C]⟩ x h (ix3 a b c) = x (ix3 (0 : Fin 1) b c) :=
  broadcastTo_apply x h _ _ (fun d => match d with
    | ⟨0, _⟩ => by show 0 = if (1 : Nat) = 1 then 0 else a.val; rw [if_pos rfl]
    | ⟨1, _⟩ => by show b.val = if B = 1 then 0 else b.val; have := b.isLt; split <;> omega
    | ⟨2, _⟩ => by show c.val = if C = 1 then 0 else c.val; have := c.isLt; split <;> omega)

end Cert.LibSlab
-- ==== Proof.LibPlaneLayout.lean ====
/-
  A stack of planes `[C, H, W]` and its keepdims statistics, read at coordinates.

  A per-row statistic of a stack of planes lives in `[C, H]`, is given a trailing unit axis (`[C, H, 1]`) and is
  broadcast back over the columns; a per-column one lives in `[C, W]`, gets a middle unit axis (`[C, 1, W]`) and is
  broadcast over the rows; a per-plane one lives in `[C]`, gets two unit axes (`[C, 1, 1]`) and is broadcast over
  the whole plane.  Each of these casts and broadcasts, and the two single-axis sums that produce the statistics,
  is read here at an index written by its coordinates, for any extents.
-/
import Idealize.ShloMosaic.PureOps.Ideal.Laws
import Idealize.ShloMosaic.Lib.ValueIdx
import Idealize.ShloMosaic.Lib.Pipeline.Value

namespace Cert.Lib.PlaneLayout

open Idealize.ShloMosaic Idealize.ShloMosaic.ValueIdx

variable {α : Type} {C H W : Nat}

/-! ## Unit axes added by a shape cast -/

/-- `[C, H] → [C, H, 1]`: the entry at `(c, h, ·)` is the operand's at `(c, h)`. -/
theorem shapeCast_ch_ch1_apply (x : (⟨2, ![C, H]⟩ : Shape).Idx → α)
    (h : (⟨2, ![C, H]⟩ : Shape).ShapeCasts ⟨3, ![C, H, 1]⟩) (c : Fin C) (r : Fin H) (u : Fin 1) :
    shapeCast ⟨3, ![C, H, 1]⟩ x h (ix3 c r u) = x (ix2 c r) :=
  shapeCast_apply x h _ _ (by
    have hu : u.val = 0 := by omega
    rw [Shape.rowMajor_val_three, Shape.rowMajor_val_two]
    show c.val * H + r.val = (c.val * H + r.val) * 1 + u.val
    rw [hu, Nat.mul_one, Nat.add_zero])

/-- `[C, W] → [C, 1, W]`: the entry at `(c, ·, w)` is the operand's at `(c, w)`. -/
theorem shapeCast_cw_c1w_apply (x : (⟨2, ![C, W]⟩ : Shape).Idx → α)
    (h : (⟨2, ![C, W]⟩ : Shape).ShapeCasts ⟨3, ![C, 1, W]⟩) (c : Fin C) (u : Fin 1) (w : Fin W) :
    shapeCast ⟨3, ![C, 1, W]⟩ x h (ix3 c u w) = x (ix2 c w) :=
  shapeCast_apply x h _ _ (by
    have hu : u.val = 0 := by omega
    rw [Shape.rowMajor_val_three, Shape.rowMajor_val_two]
    show c.val * W + w.val = (c.val * 1 + u.val) * W + w.val
    rw [hu, Nat.mul_one, Nat.add_zero])

/-- `[C] → [C, 1, 1]`: the entry at `(c, ·, ·)` is the operand's at `c`. -/
theorem shapeCast_c_c11_apply (x : (⟨1, ![C]⟩ : Shape).Idx → α)
    (h : (⟨1, ![C]⟩ : Shape).ShapeCasts ⟨3, ![C, 1, 1]⟩) (c : Fin C) (u u' : Fin 1) :
    shapeCast ⟨3, ![C, 1, 1]⟩ x h (ix3 c u u') = x (ix1 c) :=
  shapeCast_apply x h _ _ (by
    have hu : u.val = 0 := by omega
    have hu' : u'.val = 0 := by omega
    rw [Shape.rowMajor_val_three, Shape.rowMajor_val_one]
    show c.val = (c.val * 1 + u.val) * 1 + u'.val
    simp only [hu, hu', Nat.mul_one, Nat.add_zero])

/-- `[C, H, W] → [1, 1, C, H, W]`: the entry at `(·, ·, c, h, w)` is the operand's at `(c, h, w)`. -/
theorem shapeCast_chw_11chw_apply (x : (⟨3, ![C, H, W]⟩ : Shape).Idx → α)
    (h : (⟨3, ![C, H, W]⟩ : Shape).ShapeCasts ⟨5, ![1, 1, C, H, W]⟩) (u u' : Fin 1) (c : Fin C) (r : Fin H) (w : Fin W) :
    shapeCast ⟨5, ![1, 1, C, H, W]⟩ x h (ix5 u u' c r w) = x (ix3 c r w) :=
  shapeCast_apply x h _ _ (by
    have hu : u.val = 0 := by omega
    have hu' : u'.val = 0 := by omega
    rw [Shape.rowMajor_val_five, Shape.rowMajor_val_three]
    show (c.val * H + r.val) * W + w.val = ((((u.val * 1 + u'.val) * C + c.val) * H + r.val) * W + w.val)
    simp only [hu, hu', Nat.zero_mul, Nat.zero_add])

/-! ## The statistics broadcast back over the plane -/

/-- `[C, H, 1] → [C, H, W]`: every column of row `(c, h)` reads the row's entry. -/
theorem broadcastTo_ch1_chw_apply (x : (⟨3, ![C, H, 1]⟩ : Shape).Idx → α)
    (h : (⟨3, ![C, H, 1]⟩ : Shape).Broadcasts ⟨3, ![C, H, W]⟩) (c : Fin C) (r : Fin H) (w : Fin W) :
    broadcastTo ⟨3, ![C, H, W]⟩ x h (ix3 c r w) = x (ix3 c r (0 : Fin 1)) :=
  broadcastTo_apply x h _ _ (fun a => match a with
    | ⟨0, _⟩ => by show c.val = if C = 1 then 0 else c.val; have := c.isLt; split <;> omega
    | ⟨1, _⟩ => by show r.val = if H = 1 then 0 else r.val; have := r.isLt; split <;> omega
    | ⟨2, _⟩ => by show 0 = if (1 : Nat) = 1 then 0 else w.val; rw [if_pos rfl])

/-- `[C, 1, W] → [C, H, W]`: every row of column `(c, w)` reads the column's entry. -/
theorem broadcastTo_c1w_chw_apply (x : (⟨3, ![C, 1, W]⟩ : Shape).Idx → α)
    (h : (⟨3, ![C, 1, W]⟩ : Shape).Broadcasts ⟨3, ![C, H, W]⟩) (c : Fin C) (r : Fin H) (w : Fin W) :
    broadcastTo ⟨3, ![C, H, W]⟩ x h (ix3 c r w) = x (ix3 c (0 : Fin 1) w) :=
  broadcastTo_apply x h _ _ (fun a => match a with
    | ⟨0, _⟩ => by show c.val = if C = 1 then 0 else c.val; have := c.isLt; split <;> omega
    | ⟨1, _⟩ => by show 0 = if (1 : Nat) = 1 then 0 else r.val; rw [if_pos rfl]
    | ⟨2, _⟩ => by show w.val = if W = 1 then 0 else w.val; have := w.isLt; split <;> omega)

/-- `[C, 1, 1] → [C, H, W]`: every entry of plane `c` reads the plane's entry. -/
theorem broadcastTo_c11_chw_apply (x : (⟨3, ![C, 1, 1]⟩ : Shape).Idx → α)
    (h : (⟨3, ![C, 1, 1]⟩ : Shape).Broadcasts ⟨3, ![C, H, W]⟩) (c : Fin C) (r : Fin H) (w : Fin W) :
    broadcastTo ⟨3, ![C, H, W]⟩ x h (ix3 c r w) = x (ix3 c (0 : Fin 1) (0 : Fin 1)) :=
  broadcastTo_apply x h _ _ (fun a => match a with
    | ⟨0, _⟩ => by show c.val = if C = 1 then 0 else c.val; have := c.isLt; split <;> omega
    | ⟨1, _⟩ => by show 0 = if (1 : Nat) = 1 then 0 else r.val; rw [if_pos rfl]
    | ⟨2, _⟩ => by show 0 = if (1 : Nat) = 1 then 0 else w.val; rw [if_pos rfl])

/-! ## The single-axis sums -/

/-- A float sum of `[C, H, W]` over its last axis, at `(c, h)`, is the sum of row `(c, h)`. -/
theorem multiReduction_add_rows {φ : FTy} (src : FVec Ideal ⟨3, ![C, H, W]⟩ φ) (acc : BitVec φ.bits)
    (h : (⟨3, ![C, H, W]⟩ : Shape).Reduces [2] ⟨2, ![C, H]⟩) (hφ : FKind.Formats φ) (hacc : acc = FKind.add.neutral φ hφ)
    (c : Fin C) (r : Fin H) :
    multiReduction .add [2] ⟨2, ![C, H]⟩ src acc h hφ hacc (ix2 c r) = ∑ w : Fin W, src (ix3 c r w) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- A float sum of `[C, H, W]` over its middle axis, at `(c, w)`, is the sum of column `(c, w)`. -/
theorem multiReduction_add_cols {φ : FTy} (src : FVec Ideal ⟨3, ![C, H, W]⟩ φ) (acc : BitVec φ.bits)
    (h : (⟨3, ![C, H, W]⟩ : Shape).Reduces [1] ⟨2, ![C, W]⟩) (hφ : FKind.Formats φ) (hacc : acc = FKind.add.neutral φ hφ)
    (c : Fin C) (w : Fin W) :
    multiReduction .add [1] ⟨2, ![C, W]⟩ src acc h hφ hacc (ix2 c w) = ∑ r : Fin H, src (ix3 c r w) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- The two sums at `f32` from the zero accumulator, with the accumulator's side condition stated as a printed
    program states it (the zero pattern equal to itself). -/
theorem multiReduction_add_rows_f32 (src : FVec Ideal ⟨3, ![C, H, W]⟩ .f32)
    (h : (⟨3, ![C, H, W]⟩ : Shape).Reduces [2] ⟨2, ![C, H]⟩) (hφ : FKind.Formats .f32)
    (hacc : (0x00000000#32 : BitVec 32) = 0x00000000#32) (c : Fin C) (r : Fin H) :
    multiReduction .add [2] ⟨2, ![C, H]⟩ src 0x00000000#32 h hφ hacc (ix2 c r) = ∑ w : Fin W, src (ix3 c r w) :=
  multiReduction_add_rows src _ h hφ hacc c r

theorem multiReduction_add_cols_f32 (src : FVec Ideal ⟨3, ![C, H, W]⟩ .f32)
    (h : (⟨3, ![C, H, W]⟩ : Shape).Reduces [1] ⟨2, ![C, W]⟩) (hφ : FKind.Formats .f32)
    (hacc : (0x00000000#32 : BitVec 32) = 0x00000000#32) (c : Fin C) (w : Fin W) :
    multiReduction .add [1] ⟨2, ![C, W]⟩ src 0x00000000#32 h hφ hacc (ix2 c w) = ∑ r : Fin H, src (ix3 c r w) :=
  multiReduction_add_cols src _ h hφ hacc c w

end Cert.Lib.PlaneLayout
-- ==== Proof.LibRowBias.lean ====
/-
  A vector read as a row and repeated down the rows, for any element type and any extents R, C, read at (r, k):
  * `hostRow_apply`: the host's two steps — a length-C vector given a leading unit axis ([C] → [1, C], its axis sent to
    axis 1) and that row broadcast to [R, C] — read at (r, k) the vector's entry k;
  * `vectorRow_apply`: the vector unit's two steps — the vector cast to [1, C] and broadcast to [R, C] — read the same;
  * `hostSplat_apply`: a scalar broadcast to any shape reads the scalar everywhere.
-/
import Idealize.ShloMosaic.Lib.Pipeline.Value
import Idealize.ShloMosaic.Lib.ValueIdx
import Idealize.ShloMosaic.Lib.ValueLayout

noncomputable section

namespace Cert.LibRowBias

open Idealize.ShloMosaic Idealize.ShloMosaic.ValueIdx

variable {α : Type} {R C : Nat}

/-- A length-C vector given a leading unit axis on the host reads, at (u, k), its entry k. -/
theorem hostUnitRow_apply (h1 : (⟨1, ![C]⟩ : Shape).BroadcastsInDim ⟨2, ![1, C]⟩ (![1] : Fin 1 → Fin 2))
    (b : (⟨1, ![C]⟩ : Shape).Idx → α) (u : Fin 1) (k : Fin C) :
    broadcastInDim ⟨2, ![1, C]⟩ (![1] : Fin 1 → Fin 2) h1 b (ix2 u k) = b (ix1 k) := by
  refine broadcastInDim_apply _ h1 b (ix2 u k) (ix1 k) fun a => ?_
  match a with
  | ⟨0, _⟩ =>
    show k.val = if C = 1 then 0 else k.val
    split
    · have := k.isLt; omega
    · rfl

/-- That row broadcast to R rows reads, at (r, k), the row's entry (0, k). -/
theorem hostRows_apply (h2 : (⟨2, ![1, C]⟩ : Shape).BroadcastsInDim ⟨2, ![R, C]⟩ (![0, 1] : Fin 2 → Fin 2))
    (v : (⟨2, ![1, C]⟩ : Shape).Idx → α) (r : Fin R) (k : Fin C) :
    broadcastInDim ⟨2, ![R, C]⟩ (![0, 1] : Fin 2 → Fin 2) h2 v (ix2 r k) = v (ix2 (0 : Fin 1) k) := by
  refine broadcastInDim_apply _ h2 v (ix2 r k) (ix2 (0 : Fin 1) k) fun a => ?_
  match a with
  | ⟨0, _⟩ => rfl
  | ⟨1, _⟩ =>
    show k.val = if C = 1 then 0 else k.val
    split
    · have := k.isLt; omega
    · rfl

/-- The host's row of a vector, repeated down R rows, reads at (r, k) the vector's entry k. -/
theorem hostRow_apply (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (b : (⟨1, ![C]⟩ : Shape).Idx → α) (r : Fin R) (k : Fin C) :
    broadcastInDim ⟨2, ![R, C]⟩ (![0, 1] : Fin 2 → Fin 2) h2 (broadcastInDim ⟨2, ![1, C]⟩ (![1] : Fin 1 → Fin 2) h1 b) (ix2 r k)
      = b (ix1 k) :=
  (hostRows_apply h2 _ r k).trans (hostUnitRow_apply h1 b 0 k)

/-- The vector unit's row of a vector, repeated down R rows, reads at (r, k) the vector's entry k. -/
theorem vectorRow_apply (h1 : (⟨1, ![C]⟩ : Shape).ShapeCasts ⟨2, ![1, C]⟩)
    (h2 : (⟨2, ![1, C]⟩ : Shape).Broadcasts ⟨2, ![R, C]⟩)
    (b : (⟨1, ![C]⟩ : Shape).Idx → α) (r : Fin R) (k : Fin C) :
    broadcastTo ⟨2, ![R, C]⟩ (shapeCast ⟨2, ![1, C]⟩ b h1) h2 (ix2 r k) = b (ix1 k) :=
  (broadcastTo_1b_ab_apply _ h2 r k).trans (shapeCast_a_1a_apply b h1 0 k)

/-- A scalar broadcast on the host to any shape reads the scalar at every index. -/
theorem hostSplat_apply {s : Shape} (h : (⟨0, ![]⟩ : Shape).BroadcastsInDim s (![] : Fin 0 → Fin s.rank))
    (v : (⟨0, ![]⟩ : Shape).Idx → α) (j : s.Idx) :
    broadcastInDim s (![] : Fin 0 → Fin s.rank) h v j = v ix0 :=
  broadcastInDim_apply _ h v j ix0 fun a => a.elim0

end Cert.LibRowBias

end
-- ==== Proof.BodyAt.lean ====
/-
  The kernel body's output block, entry by entry, over the extended reals.

  One trip adds to entry (p, a, e) of the block the weight of its bin at position
  s = scaled (x(p, a) · scale(a) + shift(a)) times the table block's entry (k, a, e): the trailing unit axis the
  weight is given, the slab the table row is repeated along, and the scale and shift rows repeated down the block
  are all read at coordinates here.  With the fold over the 33 bins this makes entry (p, a, e) after the body the
  interpolation between the two table entries neighbouring s, whenever the table entries are real numbers.
-/
import proofs.«174147_j61907658605068_2_alg».proof.Proof.BodyFold
import proofs.«174147_j61907658605068_2_alg».proof.Proof.Spec
import proofs.«174147_j61907658605068_2_alg».proof.Proof.Bins
import proofs.«174147_j61907658605068_2_alg».proof.Proof.LibSlab
import proofs.«174147_j61907658605068_2_alg».proof.Proof.LibPlaneLayout
import proofs.«174147_j61907658605068_2_alg».proof.Proof.LibRowBias
import Idealize.ShloMosaic.Lib.ValueIdx

set_option maxRecDepth 16384

noncomputable section

namespace Cert.KernelIdeal.BodyAt

open Cert.KernelIdeal Cert.KernelIdeal.Gen Cert.KernelIdeal.BodyFold Idealize.ShloMosaic Idealize.ShloMosaic.TcCoe Idealize.SL.Sem Idealize.ShloMosaic.ValueIdx
open Cert.Spec

/-- ONE TRIP AT AN ENTRY: the stored value at (p, a, e) is what the block held there plus the bin's weight times the
    table row's entry (a, e). -/
theorem step_apply (x0 : Vec Ideal S512x64 .f32) (x1 x2 : Vec Ideal S64 .f32) (k : Fin k0_t1_loop.trips)
    (row : Vec Ideal S1x64x32 .f32) (prev : Vec Ideal S512x64x32 .f32) (p : Fin 512) (a : Fin 64) (e : Fin 32) :
    k0_pay2 (F := Ideal) x0 x1 x2 k row prev (ix3 p a e)
      = prev (ix3 p a e) + binWeight (scaled (x0 (ix2 p a) * x1 (ix1 a) + x2 (ix1 a))) k.val * row (ix3 (0 : Fin 1) a e) := by
  unfold k0_pay2
  simp only [shapeCast_self, shapeCast_shapeCast]
  rw [addf_apply, mulf_apply, Cert.Lib.PlaneLayout.broadcastTo_ch1_chw_apply, Cert.Lib.PlaneLayout.shapeCast_ch_ch1_apply,
    Cert.LibSlab.broadcastTo_1bc_abc_apply]
  generalize hb1 : broadcastTo S512x64 (shapeCast S1x64 x1 shapeCasts_S64_S1x64) broadcasts_S1x64_S512x64 = B1
  generalize hb2 : broadcastTo S512x64 (shapeCast S1x64 x2 shapeCasts_S64_S1x64) broadcasts_S1x64_S512x64 = B2
  have h1 : B1 (ix2 p a) = x1 (ix1 a) := by rw [← hb1]; exact Cert.LibRowBias.vectorRow_apply _ _ x1 p a
  have h2 : B2 (ix2 p a) = x2 (ix1 a) := by rw [← hb2]; exact Cert.LibRowBias.vectorRow_apply _ _ x2 p a
  rw [← h1, ← h2]
  rfl

/-- The table row the trip loads, at (·, a, e), is the table block at (k, a, e). -/
theorem tableRow_apply (x3 : Vec Ideal S33x64x32 .f32) (k : Fin k0_t1_loop.trips) (a : Fin 64) (e : Fin 32) :
    tableRow x3 k (ix3 (0 : Fin 1) a e) = x3 (ix3 (⟨k.val, Nat.lt_of_lt_of_eq k.isLt trips_eq⟩ : Fin 33) a e) := by
  unfold tableRow
  show x3 _ = x3 _
  refine congrArg x3 (funext fun d => Fin.ext ?_)
  have h0 : k0_off1 k 0 = k.val := congrFun (k0_off1_eq k) 0
  have h1 : k0_off1 k 1 = 0 := congrFun (k0_off1_eq k) 1
  have h2 : k0_off1 k 2 = 0 := congrFun (k0_off1_eq k) 2
  match d with
  | ⟨0, _⟩ => show k0_off1 k 0 + 1 * 0 = k.val; omega
  | ⟨1, _⟩ => show k0_off1 k 1 + 1 * a.val = a.val; omega
  | ⟨2, _⟩ => show k0_off1 k 2 + 1 * e.val = e.val; omega

/-- Before the first trip the block is zero. -/
theorem acc_zero_apply (x0 : Vec Ideal S512x64 .f32) (x1 x2 : Vec Ideal S64 .f32) (x3 : Vec Ideal S33x64x32 .f32) (j : S512x64x32.Idx) :
    acc x0 x1 x2 x3 0 j = 0 := by
  show Ideal.ofBits .f32 0x00000000#32 = 0
  exact Ideal.ofBits_zero_f32

/-- THE BLOCK AT AN ENTRY.  When the 33 table entries at `(·, a, e)` are the real numbers `T k`, the output block's entry
    `(p, a, e)` after the body is the interpolation between the two table entries neighbouring the position
    `s = scaled (x · scale + shift)` of the block's row `p` and action `a`. -/
theorem acc_apply (x0 : Vec Ideal S512x64 .f32) (x1 x2 : Vec Ideal S64 .f32) (x3 : Vec Ideal S33x64x32 .f32)
    (p : Fin 512) (a : Fin 64) (e : Fin 32) (T : ℕ → ℝ) (hT : ∀ k : Fin 33, x3 (ix3 k a e) = ((T k.val : ℝ) : EReal))
    (s : ℝ) (hs : scaled (x0 (ix2 p a) * x1 (ix1 a) + x2 (ix1 a)) = (s : EReal)) (h1 : -16 < s) (h2 : s < 16) :
    acc x0 x1 x2 x3 33 (ix3 p a e) = ((Cert.Bins.interp s T : ℝ) : EReal) := by
  refine Cert.Bins.fold_bins s h1 h2 T (fun k => acc x0 x1 x2 x3 k (ix3 p a e)) (acc_zero_apply x0 x1 x2 x3 _) fun k hk => ?_
  have hk' : k < k0_t1_loop.trips := by rw [trips_eq]; exact hk
  show acc x0 x1 x2 x3 (k + 1) (ix3 p a e) = _
  rw [(acc_succ x0 x1 x2 x3 ⟨k, hk'⟩ : acc x0 x1 x2 x3 (k + 1) = _), step_apply, tableRow_apply, hT ⟨k, hk⟩, hs]

end Cert.KernelIdeal.BodyAt

end
-- ==== Proof.HostPrefix.lean ====
/-
  What the kernel's region finds in the arrays its host code prepared, as functions of the four arguments.

  Before the call the host computes the batch mean and variance of x per action, scale = weight · rsqrt(var + ε),
  shift = bias − mean · scale, and cuts the 2112 x 32 table into 33 slabs of 64 rows.  The mean and the rsqrt are the
  very stages the reference computes (the same operations of x in the same order), so scale and shift are stated over
  the reference's own stage functions; nothing about a mean or a variance is re-derived here.
-/
import proofs.«174147_j61907658605068_2_alg».proof.Proof.Gen.KernelIdeal.Frame
import proofs.«174147_j61907658605068_2_alg».proof.Proof.Gen.ReferenceIdeal.Read
import Idealize.ShloMosaic.Lib.StableHlo.Run
import Idealize.ShloMosaic.Lib.Pipeline.Value

set_option maxRecDepth 16384

noncomputable section

namespace Cert.KernelIdeal.HostPrefix

open Cert.KernelIdeal Cert.KernelIdeal.Gen Idealize.ShloMosaic Idealize.ShloMosaic.TcCoe Idealize.SL.Sem Idealize.ShloMosaic.StableHlo

/-- scale = weight · rsqrt(variance + ε), the reference's own rsqrt stage. -/
def scaleOf (x : (⟨S16384x64, .f32⟩ : BufTy).Contents (Elt Ideal)) (w : (⟨S64, .f32⟩ : BufTy).Contents (Elt Ideal)) :
    (⟨S64, .f32⟩ : BufTy).Contents (Elt Ideal) :=
  mulf (F := Ideal) (s := S64) (φ := .f32) w (Cert.ReferenceIdeal.Read.val_main_v15 (F := Ideal) x)

/-- shift = bias − mean · scale, the reference's own mean stage. -/
def shiftOf (x : (⟨S16384x64, .f32⟩ : BufTy).Contents (Elt Ideal)) (w b : (⟨S64, .f32⟩ : BufTy).Contents (Elt Ideal)) :
    (⟨S64, .f32⟩ : BufTy).Contents (Elt Ideal) :=
  subf (F := Ideal) (s := S64) (φ := .f32) b (mulf (F := Ideal) (s := S64) (φ := .f32) (Cert.ReferenceIdeal.Read.val_main_v2 (F := Ideal) x) (scaleOf x w))

/-- the table cut into 33 slabs of 64 rows. -/
def tableOf (t : (⟨S2112x32, .f32⟩ : BufTy).Contents (Elt Ideal)) : (⟨S33x64x32, .f32⟩ : BufTy).Contents (Elt Ideal) :=
  shapeCast S33x64x32 t shapeCasts_S2112x32_S33x64x32

variable (m : (ℓ : Loc nD τ sig) → Buf (Elt Ideal) ℓ)

/-- The region finds `scale` in the array window 1 stages. -/
theorem V_scale (c : Dev nD) :
    V m c main_v13 = scaleOf (m ((c : Thread nD τ).loc main_arg0)) (m ((c : Thread nD τ).loc main_arg1)) := by
  dsimp only [Gen.V, Gen.hostOps0]
  after_results
  rfl

set_option maxHeartbeats 2000000 in
/-- The region finds `shift` in the array window 2 stages. -/
theorem V_shift (c : Dev nD) :
    V m c main_v15 = shiftOf (m ((c : Thread nD τ).loc main_arg0)) (m ((c : Thread nD τ).loc main_arg1)) (m ((c : Thread nD τ).loc main_arg2)) := by
  dsimp only [Gen.V, Gen.hostOps0]
  after_results
  rfl

/-- The region finds the cut table in the array window 3 stages. -/
theorem V_table (c : Dev nD) :
    V m c main_v16 = tableOf (m ((c : Thread nD τ).loc main_arg3)) := by
  dsimp only [Gen.V, Gen.hostOps0]
  after_results
  rfl

end Cert.KernelIdeal.HostPrefix

end
-- ==== Proof.Blocks.lean ====
/-
  From the blocks to the kernel's result array, entry by entry.

  The grid has 32 points; point t reads rows 512 t … 512 t + 511 of x, the whole scale and shift vectors and the whole
  cut table, and writes back rows 512 t … 512 t + 511 of the result.  Distinct points write disjoint blocks, so entry
  (512 t + p, a, e) of the result array after the run is entry (p, a, e) of what the body left at point t; the body's
  inputs there are x's row 512 t + p, scale, shift and the table, each as the host code prepared it.
-/
import proofs.«174147_j61907658605068_2_alg».proof.Proof.Gen.KernelIdeal.Value
import proofs.«174147_j61907658605068_2_alg».proof.Proof.BodyAt
import proofs.«174147_j61907658605068_2_alg».proof.Proof.HostPrefix

set_option maxRecDepth 16384

noncomputable section

namespace Cert.KernelIdeal.Blocks

open Cert.KernelIdeal Cert.KernelIdeal.Gen Cert.KernelIdeal.Value Cert.KernelIdeal.BodyFold Cert.KernelIdeal.HostPrefix Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps, decided over the 32 grid points: x and the result move with the point along the row axis;
    scale, shift and the table stay put. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Point `t`'s x block at (p, a) is x at row 512 t + p. -/
theorem iblk0_apply (c : Dev nD) (t : Fin cfg0.N) (p : Fin 512) (a : Fin 64) (h : t.val * 512 + p.val < 16384) :
    iblk m c 0 t (ix2 p a) = m ((c : Thread nD τ).loc main_arg0) (ix2 (⟨t.val * 512 + p.val, h⟩ : Fin 16384) a) := by
  show V m c main_arg0 (((cfg0.win 0).blk t).view.emb (ix2 p a)) = _
  rw [V_main_arg0]
  refine congrArg (m ((c : Thread nD τ).loc main_arg0)) (funext fun d => Fin.ext ?_)
  obtain ⟨e0, e1, -⟩ := idx_facts t
  match d with
  | ⟨0, _⟩ => show win0_0.index t (0 : Fin 2) * 512 + 1 * p.val = t.val * 512 + p.val; omega
  | ⟨1, _⟩ => show win0_0.index t (1 : Fin 2) * 64 + 1 * a.val = a.val; omega

/-- Every point's scale block is `scale`. -/
theorem iblk1_apply (c : Dev nD) (t : Fin cfg0.N) (a : Fin 64) :
    iblk m c 1 t (ix1 a) = scaleOf (m ((c : Thread nD τ).loc main_arg0)) (m ((c : Thread nD τ).loc main_arg1)) (ix1 a) := by
  show V m c main_v13 (((cfg0.win 1).blk t).view.emb (ix1 a)) = _
  rw [V_scale]
  refine congrArg (scaleOf _ _) (funext fun d => Fin.ext ?_)
  obtain ⟨-, -, e2, -⟩ := idx_facts t
  match d with
  | ⟨0, _⟩ => show win0_1.index t (0 : Fin 1) * 64 + 1 * a.val = a.val; omega

/-- Every point's shift block is `shift`. -/
theorem iblk2_apply (c : Dev nD) (t : Fin cfg0.N) (a : Fin 64) :
    iblk m c 2 t (ix1 a) = shiftOf (m ((c : Thread nD τ).loc main_arg0)) (m ((c : Thread nD τ).loc main_arg1)) (m ((c : Thread nD τ).loc main_arg2)) (ix1 a) := by
  show V m c main_v15 (((cfg0.win 2).blk t).view.emb (ix1 a)) = _
  rw [V_shift]
  refine congrArg (shiftOf _ _ _) (funext fun d => Fin.ext ?_)
  obtain ⟨-, -, -, e3, -⟩ := idx_facts t
  match d with
  | ⟨0, _⟩ => show win0_2.index t (0 : Fin 1) * 64 + 1 * a.val = a.val; omega

/-- Every point's table block is the cut table. -/
theorem iblk3_apply (c : Dev nD) (t : Fin cfg0.N) (k : Fin 33) (a : Fin 64) (e : Fin 32) :
    iblk m c 3 t (ix3 k a e) = tableOf (m ((c : Thread nD τ).loc main_arg3)) (ix3 k a e) := by
  show V m c main_v16 (((cfg0.win 3).blk t).view.emb (ix3 k a e)) = _
  rw [V_table]
  refine congrArg (tableOf _) (funext fun d => Fin.ext ?_)
  obtain ⟨-, -, -, -, e4, e5, e6, -⟩ := idx_facts t
  match d with
  | ⟨0, _⟩ => show win0_3.index t (0 : Fin 3) * 33 + 1 * k.val = k.val; omega
  | ⟨1, _⟩ => show win0_3.index t (1 : Fin 3) * 64 + 1 * a.val = a.val; omega
  | ⟨2, _⟩ => show win0_3.index t (2 : Fin 3) * 32 + 1 * e.val = e.val; omega

/-- Entry (p, a, e) of point `t`'s output block is entry (512 t + p, a, e) of the result array. -/
theorem emb4 (t : Fin cfg0.N) (p : Fin 512) (a : Fin 64) (e : Fin 32) (h : t.val * 512 + p.val < 16384) :
    ((cfg0.win 4).blk t).view.emb (ix3 p a e) = ix3 (⟨t.val * 512 + p.val, h⟩ : Fin 16384) a e := by
  funext d; refine Fin.ext ?_
  obtain ⟨-, -, -, -, -, -, -, e7, e8, e9⟩ := idx_facts t
  match d with
  | ⟨0, _⟩ => show win0_4.index t (0 : Fin 3) * 512 + 1 * p.val = t.val * 512 + p.val; omega
  | ⟨1, _⟩ => show win0_4.index t (1 : Fin 3) * 64 + 1 * a.val = a.val; omega
  | ⟨2, _⟩ => show win0_4.index t (2 : Fin 3) * 32 + 1 * e.val = e.val; omega

/-- THE RESULT ARRAY AT AN ENTRY, after the run: what the body left at (p, a, e) of the block of point `t`. -/
theorem arr_apply (c : Dev nD) (t : Fin cfg0.N) (p : Fin 512) (a : Fin 64) (e : Fin 32) (h : t.val * 512 + p.val < 16384) :
    (dats m 0 c).arrAt 4 cfg0.N (ix3 (⟨t.val * 512 + p.val, h⟩ : Fin 16384) a e)
      = acc (iblk m c 0 t) (iblk m c 1 t) (iblk m c 2 t) (iblk m c 3 t) 33 (ix3 p a e) := by
  have hb := congrFun (blocks4 m c t (flush0_4 t)) (ix3 p a e)
  rw [flushed4_A, out_eq_acc] at hb
  rw [← emb4 t p a e h]
  exact hb

/-- The kernel's pre-activation at row `n` and action `a`: x · scale + shift. -/
def kpre (x : (⟨S16384x64, .f32⟩ : BufTy).Contents (Elt Ideal)) (w b : (⟨S64, .f32⟩ : BufTy).Contents (Elt Ideal))
    (n : Fin 16384) (a : Fin 64) : EReal :=
  x (ix2 n a) * scaleOf x w (ix1 a) + shiftOf x w b (ix1 a)

/-- THE KERNEL'S RESULT AT AN ENTRY.  When the table's 33 entries at `(·, a, e)` are the real numbers `T k` and the
    position of row `n = 512 t + p` and action `a` is the real `s`, the result array's entry `(n, a, e)` after the run
    is the interpolation between the two table entries neighbouring `s`. -/
theorem kernel_apply (c : Dev nD) (t : Fin cfg0.N) (p : Fin 512) (a : Fin 64) (e : Fin 32) (h : t.val * 512 + p.val < 16384)
    (T : ℕ → ℝ) (hT : ∀ k : Fin 33, tableOf (m ((c : Thread nD τ).loc main_arg3)) (ix3 k a e) = ((T k.val : ℝ) : EReal))
    (s : ℝ)
    (hs : Cert.Spec.scaled (kpre (m ((c : Thread nD τ).loc main_arg0)) (m ((c : Thread nD τ).loc main_arg1)) (m ((c : Thread nD τ).loc main_arg2))
        (⟨t.val * 512 + p.val, h⟩ : Fin 16384) a) = (s : EReal))
    (h1 : -16 < s) (h2 : s < 16) :
    (dats m 0 c).arrAt 4 cfg0.N (ix3 (⟨t.val * 512 + p.val, h⟩ : Fin 16384) a e) = ((Cert.Bins.interp s T : ℝ) : EReal) := by
  rw [arr_apply m c t p a e h]
  refine Cert.KernelIdeal.BodyAt.acc_apply (iblk m c 0 t) (iblk m c 1 t) (iblk m c 2 t) (iblk m c 3 t) p a e T (fun k => ?_) s ?_ h1 h2
  · rw [iblk3_apply]; exact hT k
  · rw [iblk0_apply m c t p a h, iblk1_apply, iblk2_apply]; exact hs

end Cert.KernelIdeal.Blocks

end
-- ==== Proof.LibGatherRows.lean ====
/-
  Rows of a table taken at an array of row numbers, for any element type and extents N, C, R, Q:
  `table[idx]` of a table `[N, C]` at integer row numbers `[R, Q]` lowers to a gather with offset axis 2, collapsed
  operand axis 0, start index map [0], slice sizes [1, C], over the row numbers as `[R, Q, 1]`.  Its entry
  `(r, q, c)` is the table's entry `(row, c)`, `row` the row number `idx[r, q, 0]` read signed and clamped into
  `[0, N − 1]`.
-/
import Idealize.ShloMosaic.Lib.ValueIdx

noncomputable section

namespace Cert.LibGatherRows

open Idealize.ShloMosaic Idealize.ShloMosaic.ValueIdx

variable {α : Type}

/-- Those dimension numbers; their conditions `wf` are decided on a program's literal shapes. -/
abbrev rowDims (N C R Q : Nat)
    (wf : GatherDims.WF ⟨2, ![N, C]⟩ ⟨3, ![R, Q, 1]⟩ ⟨3, ![R, Q, C]⟩ [2] [0] [] [0] [] 2 ![1, C]) :
    GatherDims ⟨2, ![N, C]⟩ ⟨3, ![R, Q, 1]⟩ ⟨3, ![R, Q, C]⟩ where
  offsetDims := [2]
  collapsedSliceDims := [0]
  operandBatchingDims := []
  startIndicesBatchingDims := []
  startIndexMap := [0]
  indexVectorDim := 2
  sliceSizes := ![1, C]
  wf := wf

/-- THE GATHER READ AT `(r, q, c)`: the table at the clamped row number and column `c`. -/
theorem gather_rows_apply {N C R Q w : Nat} (hN : 0 < N)
    (wf : GatherDims.WF ⟨2, ![N, C]⟩ ⟨3, ![R, Q, 1]⟩ ⟨3, ![R, Q, C]⟩ [2] [0] [] [0] [] 2 ![1, C])
    (x : (⟨2, ![N, C]⟩ : Shape).Idx → α) (idx : IVec ⟨3, ![R, Q, 1]⟩ w) (r : Fin R) (q : Fin Q) (c : Fin C) :
    Host.gather (rowDims N C R Q wf) x idx (ix3 r q c)
      = x (ix2 (⟨min (idx (ix3 r q (0 : Fin 1))).toInt.toNat (N - 1), by omega⟩ : Fin N) c) := by
  unfold Host.gather
  congr 1
  funext a
  refine Fin.ext ?_
  match a with
  | ⟨0, _⟩ =>
    show (rowDims N C R Q wf).start (ix3 r q c) idx 0 + (rowDims N C R Q wf).batchCoord (ix3 r q c) 0
      + (rowDims N C R Q wf).offCoord (ix3 r q c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R Q wf).startIndexMap from List.mem_singleton.mpr rfl)]
    have hsi : (rowDims N C R Q wf).siIdx (ix3 r q c) ⟨List.idxOf (0 : Fin 2) (rowDims N C R Q wf).startIndexMap,
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N C R Q wf).start (ix3 r q c) idx 1 + (rowDims N C R Q wf).batchCoord (ix3 r q c) 1
      + (rowDims N C R Q wf).offCoord (ix3 r q c) 1 = c.val
    rw [GatherDims.batchCoord_eq_zero _ _ _ List.not_mem_nil]
    have hst : (rowDims N C R Q wf).start (ix3 r q c) idx 1 = 0 := by
      unfold GatherDims.start
      rw [dif_neg (show (1 : Fin 2) ∉ ([0] : List (Fin 2)) from by decide)]
    rw [hst]
    simp only [Nat.add_zero, Nat.zero_add]
    unfold GatherDims.offCoord
    rw [dif_pos ((GatherDims.mem_sKept _ _).mpr ⟨(show (1 : Fin 2) ∉ ([0] : List (Fin 2)) from by decide), List.not_mem_nil⟩)]
    rfl

end Cert.LibGatherRows

end
-- ==== Proof.RefAt.lean ====
/-
  The reference's result, entry by entry, over the extended reals.

  At row `n`, action `a` the reference normalises x by the batch mean and rsqrt, applies weight and bias
  (`pre`), clips the hyperbolic tangent to `t` and sets `s = 16 t`.  It takes table row `64 (floor s + 16) + a` (low)
  and row `64 (floor (s + 1) + 16) + a` (high) — both row numbers lie in the table, so neither the fix-up of negative
  row numbers nor the gather's clamp changes them — and returns high · 16 (t − floor s / 16) + low · 16 (floor (s + 1) / 16 − t):
  the interpolation between the two table rows neighbouring `s`.
-/
import proofs.«174147_j61907658605068_2_alg».proof.Proof.Gen.ReferenceIdeal.Read
import proofs.«174147_j61907658605068_2_alg».proof.Proof.Spec
import proofs.«174147_j61907658605068_2_alg».proof.Proof.Bins
import proofs.«174147_j61907658605068_2_alg».proof.Proof.Literals
import proofs.«174147_j61907658605068_2_alg».proof.Proof.LibGatherRows
import Idealize.ShloMosaic.Lib.ValueIdx

set_option maxRecDepth 16384

noncomputable section

namespace Cert.ReferenceIdeal.RefAt

open Cert.ReferenceIdeal Cert.ReferenceIdeal.Read Idealize.ShloMosaic Idealize.ShloMosaic.ValueIdx Cert.Spec

variable (x0 : (⟨S16384x64, .f32⟩ : BufTy).Contents (Elt Ideal)) (x1 x2 : (⟨S64, .f32⟩ : BufTy).Contents (Elt Ideal)) (x3 : (⟨S2112x32, .f32⟩ : BufTy).Contents (Elt Ideal))

/-- The reference's pre-activation at row `n` and action `a`: ((x − mean) · rsqrt) · weight + bias. -/
def pre (n : Fin 16384) (a : Fin 64) : EReal :=
  ((x0 (ix2 n a) - val_main_v2 (F := Ideal) x0 (ix1 a)) * val_main_v15 (F := Ideal) x0 (ix1 a)) * x1 (ix1 a) + x2 (ix1 a)

/-! ## Where the broadcasts read -/

theorem i10 (n : Fin 16384) (a : Fin 64) : idx_main_v10 (idx_main_v11 (ix2 n a)) = ix1 a := by
  funext d; match d with | ⟨0, _⟩ => rfl
theorem i16 (n : Fin 16384) (a : Fin 64) : idx_main_v16 (idx_main_v17 (ix2 n a)) = ix1 a := by
  funext d; match d with | ⟨0, _⟩ => rfl
theorem i19 (n : Fin 16384) (a : Fin 64) : idx_main_v19 (idx_main_v20 (ix2 n a)) = ix1 a := by
  funext d; match d with | ⟨0, _⟩ => rfl
theorem i22 (n : Fin 16384) (a : Fin 64) : idx_main_v22 (idx_main_v23 (ix2 n a)) = ix1 a := by
  funext d; match d with | ⟨0, _⟩ => rfl
theorem i37 (n : Fin 16384) (a : Fin 64) : idx_main_v28 (idx_main_v37 (ix2 n a)) = ix1 a := by
  funext d; match d with | ⟨0, _⟩ => rfl
theorem i51 (n : Fin 16384) (a : Fin 64) : idx_main_v28 (idx_main_v51 (ix2 n a)) = ix1 a := by
  funext d; match d with | ⟨0, _⟩ => rfl
theorem p69 (n : Fin 16384) (a : Fin 64) (e : Fin 32) : idx_main_v69 (idx_main_v74 (ix3 n a e)) = ix2 n a := by
  funext d; match d with | ⟨0, _⟩ => rfl | ⟨1, _⟩ => rfl
theorem p70 (n : Fin 16384) (a : Fin 64) (e : Fin 32) : idx_main_v70 (idx_main_v74 (ix3 n a e)) = ix2 n a := by
  funext d; match d with | ⟨0, _⟩ => rfl | ⟨1, _⟩ => rfl
theorem p76 (n : Fin 16384) (a : Fin 64) (e : Fin 32) : idx_main_v76 (idx_main_v80 (ix3 n a e)) = ix2 n a := by
  funext d; match d with | ⟨0, _⟩ => rfl | ⟨1, _⟩ => rfl
theorem p69' (n : Fin 16384) (a : Fin 64) (e : Fin 32) : idx_main_v69 (idx_main_v80 (ix3 n a e)) = ix2 n a := by
  funext d; match d with | ⟨0, _⟩ => rfl | ⟨1, _⟩ => rfl
theorem p60 (n : Fin 16384) (a : Fin 64) : idx_main_v60 (ix3 n a (0 : Fin 1)) = ix2 n a := by
  funext d; match d with | ⟨0, _⟩ => rfl | ⟨1, _⟩ => rfl
theorem p67 (n : Fin 16384) (a : Fin 64) : idx_main_v67 (ix3 n a (0 : Fin 1)) = ix2 n a := by
  funext d; match d with | ⟨0, _⟩ => rfl | ⟨1, _⟩ => rfl

/-! ## The float stages at (n, a) -/

theorem v24_apply (n : Fin 16384) (a : Fin 64) : val_main_v24 (F := Ideal) x0 x1 x2 (ix2 n a) = pre x0 x1 x2 n a := by
  rw [val_main_v24_apply, val_main_v21_apply, val_main_v18_apply, val_main_v12_apply, val_main_v11_apply, val_main_v10_apply,
    val_main_v17_apply, val_main_v16_apply, val_main_v20_apply, val_main_v19_apply, val_main_v23_apply, val_main_v22_apply,
    i10, i16, i19, i22]
  rfl

theorem v26_apply (n : Fin 16384) (a : Fin 64) : val_main_v26 (F := Ideal) x0 x1 x2 (ix2 n a) = clipped (pre x0 x1 x2 n a) := by
  rw [val_main_v26_apply, val_main_call0_v4_apply, val_main_call0_v3_apply, val_main_cst_5_apply, val_main_call0_v2_apply,
    val_main_call0_v1_apply, val_main_call0_v0_apply, val_main_cst_4_apply, val_main_v25_apply, v24_apply]
  rfl

theorem v30_apply (n : Fin 16384) (a : Fin 64) : val_main_v30 (F := Ideal) x0 x1 x2 (ix2 n a) = scaled (pre x0 x1 x2 n a) := by
  rw [val_main_v30_apply, v26_apply, val_main_v29_apply, val_main_cst_6_apply]
  rfl

theorem v42_apply (n : Fin 16384) (a : Fin 64) : val_main_v42 (F := Ideal) x0 x1 x2 (ix2 n a) = scaled (pre x0 x1 x2 n a) := by
  rw [val_main_v42_apply, v26_apply, val_main_v41_apply, val_main_cst_9_apply]
  rfl

theorem v31_apply (n : Fin 16384) (a : Fin 64) :
    val_main_v31 (F := Ideal) x0 x1 x2 (ix2 n a) = Ideal.liftRound Int.floor (scaled (pre x0 x1 x2 n a)) := by
  rw [val_main_v31_apply, v30_apply]
  rfl

theorem v45_apply (n : Fin 16384) (a : Fin 64) :
    val_main_v45 (F := Ideal) x0 x1 x2 (ix2 n a)
      = Ideal.liftRound Int.floor (scaled (pre x0 x1 x2 n a) + Ideal.ofBits .f32 0x3F800000#32) := by
  rw [val_main_v45_apply, val_main_v44_apply, v42_apply, val_main_v43_apply, val_main_cst_10_apply]
  rfl

/-! ## The two weights at (n, a, e) -/

theorem v74_apply (n : Fin 16384) (a : Fin 64) (e : Fin 32) :
    val_main_v74 (F := Ideal) x0 x1 x2 (ix3 n a e)
      = Ideal.ofBits .f32 0x41800000#32 * (clipped (pre x0 x1 x2 n a)
          - Ideal.div (Ideal.liftRound Int.floor (scaled (pre x0 x1 x2 n a))) (Ideal.ofBits .f32 0x41800000#32)) := by
  rw [val_main_v74_apply, val_main_v73_apply, val_main_v72_apply, val_main_cst_18_apply, val_main_v71_apply,
    val_main_v69_apply, val_main_v70_apply, p69, p70, v26_apply, val_main_v40_apply, v31_apply, val_main_v39_apply,
    val_main_cst_8_apply]
  rfl

theorem v80_apply (n : Fin 16384) (a : Fin 64) (e : Fin 32) :
    val_main_v80 (F := Ideal) x0 x1 x2 (ix3 n a e)
      = Ideal.ofBits .f32 0x41800000#32 * (Ideal.div (Ideal.liftRound Int.floor (scaled (pre x0 x1 x2 n a) + Ideal.ofBits .f32 0x3F800000#32))
          (Ideal.ofBits .f32 0x41800000#32) - clipped (pre x0 x1 x2 n a)) := by
  rw [val_main_v80_apply, val_main_v79_apply, val_main_v78_apply, val_main_cst_19_apply, val_main_v77_apply,
    val_main_v76_apply, val_main_v69_apply, p76, p69', v26_apply, val_main_v54_apply, v45_apply, val_main_v53_apply,
    val_main_cst_13_apply]
  rfl

/-! ## The two row numbers at (n, a) -/

theorem v59_apply (n : Fin 16384) (a : Fin 64) :
    val_main_v59 (F := Ideal) x0 x1 x2 (ix2 n a)
      = Scalar.select (IntOp.cmpi .slt (IntOp.addi (IntOp.muli 64#32 (IntOp.addi (floorWord (scaled (pre x0 x1 x2 n a))) 16#32)) (BitVec.ofNat 32 a.val)) 0#32)
          (IntOp.addi (IntOp.addi (IntOp.muli 64#32 (IntOp.addi (floorWord (scaled (pre x0 x1 x2 n a))) 16#32)) (BitVec.ofNat 32 a.val)) 2112#32)
          (IntOp.addi (IntOp.muli 64#32 (IntOp.addi (floorWord (scaled (pre x0 x1 x2 n a))) 16#32)) (BitVec.ofNat 32 a.val)) := by
  rw [val_main_v59_apply, val_main_v56_apply, val_main_v58_apply, val_main_v38_apply, val_main_v36_apply, val_main_v35_apply,
    val_main_c_7_apply, val_main_v34_apply, val_main_v32_apply, v31_apply, val_main_v33_apply, val_main_c_apply,
    val_main_v37_apply, val_main_v28_apply, val_main_v27_apply, i37, val_main_v55_apply, val_main_c_14_apply,
    val_main_v57_apply, val_main_c_15_apply]
  rfl

theorem v66_apply (n : Fin 16384) (a : Fin 64) :
    val_main_v66 (F := Ideal) x0 x1 x2 (ix2 n a)
      = Scalar.select (IntOp.cmpi .slt (IntOp.addi (IntOp.muli 64#32 (IntOp.addi (floorWord (scaled (pre x0 x1 x2 n a) + Ideal.ofBits .f32 0x3F800000#32)) 16#32)) (BitVec.ofNat 32 a.val)) 0#32)
          (IntOp.addi (IntOp.addi (IntOp.muli 64#32 (IntOp.addi (floorWord (scaled (pre x0 x1 x2 n a) + Ideal.ofBits .f32 0x3F800000#32)) 16#32)) (BitVec.ofNat 32 a.val)) 2112#32)
          (IntOp.addi (IntOp.muli 64#32 (IntOp.addi (floorWord (scaled (pre x0 x1 x2 n a) + Ideal.ofBits .f32 0x3F800000#32)) 16#32)) (BitVec.ofNat 32 a.val)) := by
  rw [val_main_v66_apply, val_main_v63_apply, val_main_v65_apply, val_main_v52_apply, val_main_v50_apply, val_main_v49_apply,
    val_main_c_12_apply, val_main_v48_apply, val_main_v46_apply, v45_apply, val_main_v47_apply, val_main_c_11_apply,
    val_main_v51_apply, val_main_v28_apply, val_main_v27_apply, i51, val_main_v62_apply, val_main_c_16_apply,
    val_main_v64_apply, val_main_c_17_apply]
  rfl

/-! ## The two gathers at (n, a, e) -/

theorem v61_apply (n : Fin 16384) (a : Fin 64) (e : Fin 32) :
    val_main_v61 (F := Ideal) x0 x1 x2 x3 (ix3 n a e)
      = x3 (ix2 (⟨min (val_main_v59 (F := Ideal) x0 x1 x2 (ix2 n a)).toInt.toNat (2112 - 1), by omega⟩ : Fin 2112) e) := by
  have h := Cert.LibGatherRows.gather_rows_apply (N := 2112) (C := 32) (R := 16384) (Q := 64) (by decide)
    gather_S2112x32_S16384x64x1_S16384x64x32_2_0_n_n_0_2_132.wf x3 (val_main_v60 (F := Ideal) x0 x1 x2) n a e
  have e60 : val_main_v60 (F := Ideal) x0 x1 x2 (ix3 n a (0 : Fin 1)) = val_main_v59 (F := Ideal) x0 x1 x2 (ix2 n a) := by
    rw [val_main_v60_apply, p60]
  exact h.trans (congrArg x3 (congrArg (fun r : Fin 2112 => ix2 r e) (Fin.ext (by
    show min _ _ = min _ _
    rw [e60]))))

theorem v68_apply (n : Fin 16384) (a : Fin 64) (e : Fin 32) :
    val_main_v68 (F := Ideal) x0 x1 x2 x3 (ix3 n a e)
      = x3 (ix2 (⟨min (val_main_v66 (F := Ideal) x0 x1 x2 (ix2 n a)).toInt.toNat (2112 - 1), by omega⟩ : Fin 2112) e) := by
  have h := Cert.LibGatherRows.gather_rows_apply (N := 2112) (C := 32) (R := 16384) (Q := 64) (by decide)
    gather_S2112x32_S16384x64x1_S16384x64x32_2_0_n_n_0_2_132.wf x3 (val_main_v67 (F := Ideal) x0 x1 x2) n a e
  have e67 : val_main_v67 (F := Ideal) x0 x1 x2 (ix3 n a (0 : Fin 1)) = val_main_v66 (F := Ideal) x0 x1 x2 (ix2 n a) := by
    rw [val_main_v67_apply, p67]
  exact h.trans (congrArg x3 (congrArg (fun r : Fin 2112 => ix2 r e) (Fin.ext (by
    show min _ _ = min _ _
    rw [e67]))))

/-! ## The result at (n, a, e) -/

/-- THE REFERENCE'S RESULT AT AN ENTRY.  When the clipped value at row `n`, action `a` is the real `t` (of absolute value
    below one) and the table's entries `(64 k + a, e)`, `k < 33`, are the real numbers `T k`, the reference's entry
    `(n, a, e)` is the interpolation at position `16 t`. -/
theorem ref_apply (n : Fin 16384) (a : Fin 64) (e : Fin 32) (t : ℝ) (ht : clipped (pre x0 x1 x2 n a) = (t : EReal))
    (h1 : -1 < t) (h2 : t < 1) (T : ℕ → ℝ)
    (hT : ∀ k : Fin 33, x3 (ix2 (⟨64 * k.val + a.val, by have := k.isLt; have := a.isLt; omega⟩ : Fin 2112) e) = ((T k.val : ℝ) : EReal)) :
    val_main_v82 (F := Ideal) x0 x1 x2 x3 (ix3 n a e) = ((Cert.Bins.interp (t * 16) T : ℝ) : EReal) := by
  have hs1 : -16 < t * 16 := by linarith
  have hs2 : t * 16 < 16 := by linarith
  have hsc : scaled (pre x0 x1 x2 n a) = ((t * 16 : ℝ) : EReal) := by
    unfold scaled; rw [ht, Cert.Literals.ofBits_sixteen, ← EReal.coe_mul]
  obtain ⟨hl, hu⟩ := Cert.Bins.floor_bounds (t * 16) hs1 (by linarith)
  have hu' : ⌊t * 16⌋ ≤ 15 := by
    have : ⌊t * 16⌋ < 16 := Int.floor_lt.mpr (by push_cast; linarith)
    omega
  have hfw : floorWord ((t * 16 : ℝ) : EReal) = BitVec.ofInt 32 ⌊t * 16⌋ := Cert.Bins.floorWord_coe _ hs1 (by linarith)
  have hfw1 : floorWord (((t * 16 : ℝ) : EReal) + Ideal.ofBits .f32 0x3F800000#32) = BitVec.ofInt 32 (⌊t * 16⌋ + 1) := by
    rw [Cert.Literals.ofBits_one, ← EReal.coe_add, Cert.Bins.floorWord_coe _ (by linarith) (by linarith), Int.floor_add_one]
  have rowl : min (val_main_v59 (F := Ideal) x0 x1 x2 (ix2 n a)).toInt.toNat (2112 - 1) = 64 * (⌊t * 16⌋ + 16).toNat + a.val := by
    rw [v59_apply, hsc, hfw]
    exact Cert.Bins.row_word ⌊t * 16⌋ a.val hl (by omega) a.isLt
  have rowh : min (val_main_v66 (F := Ideal) x0 x1 x2 (ix2 n a)).toInt.toNat (2112 - 1) = 64 * (⌊t * 16⌋ + 17).toNat + a.val := by
    rw [v66_apply, hsc, hfw1]
    have := Cert.Bins.row_word (⌊t * 16⌋ + 1) a.val (by omega) (by omega) a.isLt
    rw [show ⌊t * 16⌋ + 1 + 16 = ⌊t * 16⌋ + 17 by ring] at this
    exact this
  have gl : val_main_v61 (F := Ideal) x0 x1 x2 x3 (ix3 n a e) = ((T (⌊t * 16⌋ + 16).toNat : ℝ) : EReal) := by
    rw [v61_apply]
    exact (congrArg x3 (congrArg (fun r : Fin 2112 => ix2 r e) (Fin.ext rowl))).trans (hT ⟨(⌊t * 16⌋ + 16).toNat, by omega⟩)
  have gh : val_main_v68 (F := Ideal) x0 x1 x2 x3 (ix3 n a e) = ((T (⌊t * 16⌋ + 17).toNat : ℝ) : EReal) := by
    rw [v68_apply]
    exact (congrArg x3 (congrArg (fun r : Fin 2112 => ix2 r e) (Fin.ext rowh))).trans (hT ⟨(⌊t * 16⌋ + 17).toNat, by omega⟩)
  rw [val_main_v82_apply, val_main_v75_apply, val_main_v81_apply, gl, gh, v74_apply, v80_apply, ht, hsc,
    Cert.Literals.ofBits_sixteen, Cert.Literals.ofBits_one, ← EReal.coe_add, Ideal.liftRound_coe, Ideal.liftRound_coe,
    Int.floor_add_one]
  exact Cert.Bins.ref_interp (t * 16) t rfl T

end Cert.ReferenceIdeal.RefAt

end
-- ==== Proof.LibExtReal.lean ====
/-
  Extended reals that are real numbers.

  A float at the ideal instance is an extended real. When every input of a network is a real number, so is every value
  built from the inputs by sums, products and maxima; and on real numbers the two ways a log-softmax is written,
  `a - (L + m)` and `(a - m) - L`, agree whatever `L` is.
-/
import Mathlib.Data.EReal.Operations
import Mathlib.Algebra.BigOperators.Group.Finset.Basic
import Mathlib.Data.Finset.Lattice.Fold

namespace Cert.LibExtReal

/-- `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem isReal_max {x y : EReal} (hx : IsReal x) (hy : IsReal y) : IsReal (max x y) := by
  rcases max_choice x y with h | h <;> rw [h] <;> assumption

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The maximum of finitely many real numbers, at least one, folded from the bottom element, is one of them: a real number. -/
theorem isReal_fold_max {ι : Type*} (s : Finset ι) (hs : s.Nonempty) (f : ι → EReal) (h : ∀ i ∈ s, IsReal (f i)) :
    IsReal (s.fold max ⊥ f) := by
  obtain ⟨i, hi, e⟩ := Finset.exists_mem_eq_sup s hs f
  have hfold : s.fold max ⊥ f = s.sup f := rfl
  rw [hfold, e]
  exact h i hi

/-- For real `a` and `m`, subtracting `L + m` from `a` is subtracting `m` and then `L`, for every extended real `L`. -/
theorem sub_add_eq_sub_sub_of_real (a m : ℝ) (L : EReal) : (a : EReal) - (L + (m : EReal)) = ((a : EReal) - (m : EReal)) - L := by
  induction L using EReal.rec with
  | bot => rw [EReal.bot_add, EReal.coe_sub_bot, ← EReal.coe_sub, EReal.coe_sub_bot]
  | coe l => rw [← EReal.coe_add, ← EReal.coe_sub, ← EReal.coe_sub, ← EReal.coe_sub]; congr 1; ring
  | top => rw [EReal.top_add_coe, EReal.sub_top, EReal.sub_top]

end Cert.LibExtReal
-- ==== Proof.Stats.lean ====
/-
  The batch statistics are real numbers.

  When every entry of x is a real number, so is the mean of each column (a finite sum of reals divided by 16384);
  the variance of a column is a sum of squares of reals divided by 16384, a real number that is not negative; adding the
  positive offset makes it positive, and the reciprocal square root of a positive real is a real.
-/
import proofs.«174147_j61907658605068_2_alg».proof.Proof.Gen.ReferenceIdeal.Read
import proofs.«174147_j61907658605068_2_alg».proof.Proof.LibExtReal
import proofs.«174147_j61907658605068_2_alg».proof.Proof.Literals
import Idealize.ShloMosaic.Lib.ValueIdx

set_option maxRecDepth 16384

noncomputable section

namespace Cert.ReferenceIdeal.Stats

open Cert.ReferenceIdeal Cert.ReferenceIdeal.Read Idealize.ShloMosaic Idealize.ShloMosaic.ValueIdx Cert.LibExtReal

variable (x0 : (⟨S16384x64, .f32⟩ : BufTy).Contents (Elt Ideal))

/-- A finite sum of real numbers that are not negative is a real number that is not negative. -/
theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, e⟩ := h a (Finset.mem_insert_self a s)
    obtain ⟨q, hq, e'⟩ := ih fun i hi => h i (Finset.mem_insert_of_mem hi)
    exact ⟨r + q, add_nonneg hr hq, by rw [Finset.sum_insert ha, e, e', EReal.coe_add]⟩

/-- The column means are real numbers. -/
theorem mean_real (hx : ∀ i, IsReal (x0 i)) (i : S64.Idx) : IsReal (val_main_v2 (F := Ideal) x0 i) := by
  rw [val_main_v2_apply, val_main_v0_apply, val_main_v1_apply, val_main_cst_0_apply, val_main_cst_apply]
  show IsReal (Ideal.div (Ideal.ofBits .f32 0x00000000#32 + ∑ k : Fin 16384, x0 (idx_main_v0 i k)) (Ideal.ofBits .f32 0x46800000#32))
  rw [Cert.Literals.ofBits_count, Ideal.div_coe (by norm_num), Ideal.ofBits_zero_f32]
  exact ((isReal_zero.add (isReal_sum _ _ fun k _ => hx _)).mul (isReal_coe _))

/-- The reciprocal square roots of the offset column variances are real numbers. -/
theorem rsqrt_real (hx : ∀ i, IsReal (x0 i)) (i : S64.Idx) : IsReal (val_main_v15 (F := Ideal) x0 i) := by
  rw [val_main_v15_apply, val_main_v14_apply, val_main_v9_apply, val_main_v7_apply, val_main_v8_apply, val_main_cst_2_apply,
    val_main_cst_1_apply, val_main_v13_apply, val_main_cst_3_apply]
  show IsReal (Ideal.rsqrt (Ideal.div (Ideal.ofBits .f32 0x00000000#32 + ∑ k : Fin 16384, val_main_v6 (F := Ideal) x0 (idx_main_v7 i k))
    (Ideal.ofBits .f32 0x46800000#32) + Ideal.ofBits .f32 0x3727C5AC#32))
  have hsq : ∀ k ∈ (Finset.univ : Finset (Fin 16384)), ∃ r : ℝ, 0 ≤ r ∧ val_main_v6 (F := Ideal) x0 (idx_main_v7 i k) = (r : EReal) := by
    intro k _
    rw [val_main_v6_apply, val_main_v5_apply, val_main_v4_apply, val_main_v3_apply]
    obtain ⟨x, hxe⟩ := hx (idx_main_v7 i k)
    obtain ⟨μ, hμ⟩ := mean_real x0 hx (idx_main_v3 (idx_main_v4 (idx_main_v7 i k)))
    rw [hxe, hμ]
    exact ⟨(x - μ) * (x - μ), mul_self_nonneg _, by
      show ((x : EReal) - (μ : EReal)) * ((x : EReal) - (μ : EReal)) = _
      rw [← EReal.coe_sub, ← EReal.coe_mul]⟩
  obtain ⟨S, hS, eS⟩ := nonneg_sum _ _ hsq
  rw [eS, Cert.Literals.ofBits_count, Ideal.div_coe (by norm_num), Ideal.ofBits_zero_f32, Cert.Literals.ofBits_eps, zero_add,
    ← EReal.coe_mul, ← EReal.coe_add, Ideal.rsqrt_coe]
  have hpos : 0 < S * (1 / 16384) + 10995116 / 2 ^ 40 := by positivity
  rw [if_neg (not_lt.mpr hpos.le), if_neg hpos.ne']
  exact isReal_coe _

end Cert.ReferenceIdeal.Stats

end
-- ==== Proof.Finite.lean ====
/-
  The precondition, opened: every entry of every input is a real number.

  The precondition is the conjunction of four tests "every |entry| is below +∞", one per input.  An extended real
  whose absolute value max x (−x) is below +∞ is neither infinity.
-/
import proofs.«174147_j61907658605068_2_alg».proof.Pre_finite_inputs
import proofs.«174147_j61907658605068_2_alg».proof.Proof.LibExtReal
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.LibExtReal

instance : Subsingleton (Cert.Pre_finite_inputs.S_.Idx) := ⟨fun a b => funext fun d => d.elim0⟩

/-- An extended real whose absolute value compares below the pattern of +∞ is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    have hd : decide (max x (-x) < ⊤) = false := decide_eq_false hn
    unfold Ideal.cmp at h
    rw [hd] at h
    simp at h
  induction x using EReal.rec with
  | bot => simp at hlt
  | coe r => exact ⟨r, rfl⟩
  | top => simp at hlt

/-- Under the precondition every entry of x, weight, bias and table is a real number. -/
theorem all_real [Cert.Pre_finite_inputs.Facts]
    (a0 : FVec Ideal Cert.Pre_finite_inputs.S16384x64 .f32) (a1 a2 : FVec Ideal Cert.Pre_finite_inputs.S64 .f32)
    (a3 : FVec Ideal Cert.Pre_finite_inputs.S2112x32 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => isReal_of_abs_lt _ (Host.reduce_andi_all _ _ _ _ _ h0' i),
    fun i => isReal_of_abs_lt _ (Host.reduce_andi_all _ _ _ _ _ h1 i),
    fun i => isReal_of_abs_lt _ (Host.reduce_andi_all _ _ _ _ _ h2 i),
    fun i => isReal_of_abs_lt _ (Host.reduce_andi_all _ _ _ _ _ h3 i)⟩

end Cert.Finite

end
-- ==== Proof.Bridge.lean ====
/-
  The kernel's result array is the reference's, entry by entry, under the precondition.

  The kernel feeds tanh with x · scale + shift, scale = weight · r and shift = bias − mean · scale; the reference with
  ((x − mean) · r) · weight + bias.  These are equal when x, mean, r, weight and bias are real numbers — which the
  precondition gives for the inputs and the statistics inherit — though not on the extended reals in general (the law
  used is distributivity).  With equal pre-activations the two positions on the axis of bins are equal, the kernel's
  accumulation over the 33 bins and the reference's two gathered rows are the same interpolation, and the table the
  kernel cut into slabs is the table the reference gathers from: slab k, row a is table row 64 k + a.
-/
import proofs.«174147_j61907658605068_2_alg».proof.Proof.Blocks
import proofs.«174147_j61907658605068_2_alg».proof.Proof.RefAt
import proofs.«174147_j61907658605068_2_alg».proof.Proof.Stats
import proofs.«174147_j61907658605068_2_alg».proof.Proof.Finite

set_option maxRecDepth 16384

noncomputable section

namespace Cert.Bridge

open Idealize.ShloMosaic Idealize.ShloMosaic.TcCoe Idealize.SL.Sem Idealize.ShloMosaic.ValueIdx Cert.LibExtReal
open Cert.KernelIdeal.HostPrefix Cert.KernelIdeal.Blocks Cert.ReferenceIdeal.RefAt Cert.ReferenceIdeal.Read

/-- On real inputs the kernel's pre-activation is the reference's. -/
theorem kpre_eq_pre (x0 : (⟨Cert.ReferenceIdeal.S16384x64, .f32⟩ : BufTy).Contents (Elt Ideal))
    (x1 x2 : (⟨Cert.ReferenceIdeal.S64, .f32⟩ : BufTy).Contents (Elt Ideal))
    (hx0 : ∀ i, IsReal (x0 i)) (hx1 : ∀ i, IsReal (x1 i)) (hx2 : ∀ i, IsReal (x2 i)) (n : Fin 16384) (a : Fin 64) :
    kpre x0 x1 x2 n a = pre x0 x1 x2 n a := by
  obtain ⟨x, hx⟩ := hx0 (ix2 n a)
  obtain ⟨w, hw⟩ := hx1 (ix1 a)
  obtain ⟨b, hb⟩ := hx2 (ix1 a)
  obtain ⟨μ, hμ⟩ := Cert.ReferenceIdeal.Stats.mean_real x0 hx0 (ix1 a)
  obtain ⟨r, hr⟩ := Cert.ReferenceIdeal.Stats.rsqrt_real x0 hx0 (ix1 a)
  show x0 (ix2 n a) * (x1 (ix1 a) * val_main_v15 (F := Ideal) x0 (ix1 a))
      + (x2 (ix1 a) - val_main_v2 (F := Ideal) x0 (ix1 a) * (x1 (ix1 a) * val_main_v15 (F := Ideal) x0 (ix1 a)))
    = ((x0 (ix2 n a) - val_main_v2 (F := Ideal) x0 (ix1 a)) * val_main_v15 (F := Ideal) x0 (ix1 a)) * x1 (ix1 a) + x2 (ix1 a)
  rw [hx, hw, hb, hμ, hr]
  simp only [← EReal.coe_mul, ← EReal.coe_sub, ← EReal.coe_add]
  congr 1
  ring

/-- The cut table at slab `k`, row `a`, column `e` is the table at row `64 k + a`, column `e`. -/
theorem tableOf_apply (x3 : (⟨Cert.KernelIdeal.S2112x32, .f32⟩ : BufTy).Contents (Elt Ideal)) (k : Fin 33) (a : Fin 64) (e : Fin 32) :
    tableOf x3 (ix3 k a e) = x3 (ix2 (⟨64 * k.val + a.val, by have := k.isLt; have := a.isLt; omega⟩ : Fin 2112) e) := by
  unfold tableOf
  refine shapeCast_apply x3 _ _ _ ?_
  rw [Shape.rowMajor_val_two, Shape.rowMajor_val_three]
  show (64 * k.val + a.val) * 32 + e.val = (k.val * 64 + a.val) * 32 + e.val
  ring

/-- THE TWO RESULTS AGREE.  Under the precondition the kernel's result array after its run is the reference's result,
    as functions of the same four arguments. -/
theorem result_eq [Cert.Pre_finite_inputs.Facts]
    (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    (Cert.KernelIdeal.Gen.dats m 0 c).arrAt 4 Cert.KernelIdeal.cfg0.N
      = val_main_v82 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨hx0, hx1, hx2, hx3⟩ := Cert.Finite.all_real _ _ _ _ hpre
  funext i
  obtain ⟨n, a, e, rfl⟩ : ∃ (n : Fin 16384) (a : Fin 64) (e : Fin 32), i = ix3 n a e := ⟨i 0, i 1, i 2, eq_ix3 i⟩
  have hnlt := n.isLt
  have ht : n.val / 512 < Cert.KernelIdeal.cfg0.N := by
    show n.val / 512 < 32
    omega
  have hp : n.val % 512 < 512 := Nat.mod_lt _ (by norm_num)
  have h : n.val / 512 * 512 + n.val % 512 < 16384 := by omega
  have hn : (⟨n.val / 512 * 512 + n.val % 512, h⟩ : Fin 16384) = n := Fin.ext (by show n.val / 512 * 512 + n.val % 512 = n.val; omega)
  obtain ⟨tc, htc, h1, h2⟩ := Cert.Bins.clipped_real
    (pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) n a)
  -- the 33 table entries this result entry can read, as real numbers
  have hreal : ∀ k : Fin 33, ∃ r : ℝ, m ((c.tc : Thread Cert.KernelIdeal.nD Cert.KernelIdeal.τ).loc Cert.KernelIdeal.main_arg3)
      (ix2 (⟨64 * k.val + a.val, by have := k.isLt; have := a.isLt; omega⟩ : Fin 2112) e) = (r : EReal) := fun k => hx3 _
  choose Tf hTf using hreal
  let T : ℕ → ℝ := fun k => if hk : k < 33 then Tf ⟨k, hk⟩ else 0
  have hT : ∀ k : Fin 33, m ((c.tc : Thread Cert.KernelIdeal.nD Cert.KernelIdeal.τ).loc Cert.KernelIdeal.main_arg3)
      (ix2 (⟨64 * k.val + a.val, by have := k.isLt; have := a.isLt; omega⟩ : Fin 2112) e) = ((T k.val : ℝ) : EReal) := by
    intro k
    rw [hTf k]
    show _ = (((if hk : k.val < 33 then Tf ⟨k.val, hk⟩ else 0 : ℝ)) : EReal)
    rw [dif_pos k.isLt]
  -- the reference's entry
  rw [ref_apply _ _ _ _ n a e tc htc h1 h2 T hT]
  -- the kernel's entry
  have hs : Cert.Spec.scaled (kpre (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (⟨n.val / 512 * 512 + n.val % 512, h⟩ : Fin 16384) a) = ((tc * 16 : ℝ) : EReal) := by
    rw [hn, kpre_eq_pre _ _ _ hx0 hx1 hx2]
    unfold Cert.Spec.scaled
    rw [htc, Cert.Literals.ofBits_sixteen, ← EReal.coe_mul]
  have hk := kernel_apply m c ⟨n.val / 512, ht⟩ ⟨n.val % 512, hp⟩ a e h T
    (fun k => (tableOf_apply _ k a e).trans (hT k)) (tc * 16) hs (by linarith) (by linarith)
  rw [hn] at hk
  exact hk

end Cert.Bridge

end
-- ==== Proof.lean ====
/-
  The kernel against its reference: 33-bin linear interpolation of an embedding table after a batch-normalised,
  clipped hyperbolic tangent.

  Both programs normalise each column of x by its batch mean and variance, apply weight and bias, take tanh, clip it
  to ±16777048/2^24 and multiply by sixteen: a position s strictly between −16 and 16.  The reference gathers table
  rows 64 (floor s + 16) + a and 64 (floor (s + 1) + 16) + a and combines them with weights 16 (floor (s + 1)/16 − t)
  and 16 (t − floor s/16).  The kernel instead runs over all 33 bins, adding (weight of the bin) · (table slab of the
  bin) into its output block, the weight being floor (s + 1) − s at bin floor s + 16, s − floor s at bin
  floor (s + 1) + 16, and zero elsewhere.  Over the extended reals both are the interpolation
      (floor s + 1 − s) · table[floor s + 16] + (s − floor s) · table[floor s + 17]
  (Proof/Bins.lean), at the same position: the kernel's x · scale + shift is the reference's
  ((x − mean) · rsqrt) · weight + bias because the inputs are real numbers (the precondition; Proof/Finite.lean,
  Proof/Stats.lean, Proof/Bridge.lean).  The kernel's block after its 33 trips is Proof/BodyFold.lean and
  Proof/BodyAt.lean; its result array from its blocks, Proof/Blocks.lean over Proof/HostPrefix.lean; the reference
  entry by entry, Proof/RefAt.lean.  The ideal pass rewrote nothing, so the kernel's idealization is its own text.
-/
import proofs.«174147_j61907658605068_2_alg».proof.Defs
import proofs.«174147_j61907658605068_2_alg».proof.Proof.Gen.Kernel
import proofs.«174147_j61907658605068_2_alg».proof.Proof.Gen.Kernel.Skeleton
import proofs.«174147_j61907658605068_2_alg».proof.Proof.Gen.Kernel.Loops
import proofs.«174147_j61907658605068_2_alg».proof.Proof.Gen.Kernel.Launch
import proofs.«174147_j61907658605068_2_alg».proof.Proof.Gen.Kernel.Points
import proofs.«174147_j61907658605068_2_alg».proof.Proof.Gen.Kernel.Frame
import proofs.«174147_j61907658605068_2_alg».proof.Proof.Gen.KernelIdeal
import proofs.«174147_j61907658605068_2_alg».proof.Proof.Gen.KernelIdeal.Skeleton
import proofs.«174147_j61907658605068_2_alg».proof.Proof.Gen.KernelIdeal.Loops
import proofs.«174147_j61907658605068_2_alg».proof.Proof.Gen.KernelIdeal.Launch
import proofs.«174147_j61907658605068_2_alg».proof.Proof.Gen.KernelIdeal.Points
import proofs.«174147_j61907658605068_2_alg».proof.Proof.Gen.KernelIdeal.Frame
import proofs.«174147_j61907658605068_2_alg».proof.Proof.Gen.ReferenceIdeal
import proofs.«174147_j61907658605068_2_alg».proof.Proof.Gen.KernelIdeal.Value
import proofs.«174147_j61907658605068_2_alg».proof.Proof.Gen.ReferenceIdeal.Run
import proofs.«174147_j61907658605068_2_alg».proof.Proof.Gen.ReferenceIdeal.Read
import proofs.«174147_j61907658605068_2_alg».proof.Proof.Gen.Pre_finite_inputs
import proofs.«174147_j61907658605068_2_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the four arguments, the kernel's result array and the reference's result end equal, entry by
    entry, over the extended reals: both are the reference's function of the arguments. -/
theorem algebraic : Cert.algebraic_KernelIdeal_ReferenceIdeal := by
  intro m ρ m' ρ' hpre hagree
  refine ⟨fun c => Cert.ReferenceIdeal.Read.val_main_v82 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Bridge.result_eq m c (hpre c)), (h c).2⟩)
      (Cert.KernelIdeal.Value.run_blocks (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v82_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
